-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v418)) (v1 : (c : Dev Cert.KernelIdeal.nD) → Buf (Elt Ideal) ((c.tc : Thread Cert.KernelIdeal.nD Cert.KernelIdeal.τ).loc Cert.KernelIdeal.main_v419)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v418) = v0 c
          ∧ r.2.mem ((c.tc : Thread Cert.KernelIdeal.nD Cert.KernelIdeal.τ).loc Cert.KernelIdeal.main_v419) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S100000x64 .f32) (main_arg1 : FVec F S50000x64 .f32) (main_arg2 : IVec S2000000 32) (main_arg3 : IVec S2000000 32) (main_arg4 : FVec F S2000000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2000000 .f32 := Host.absf main_arg4
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S2000000 : Shape := ⟨1, ![2000000]⟩
abbrev S150000x64 : Shape := ⟨2, ![150000, 64]⟩
abbrev S_ : Shape := ⟨0, ![]⟩
abbrev S250000 : Shape := ⟨1, ![250000]⟩
abbrev S250000x1 : Shape := ⟨2, ![250000, 1]⟩
abbrev S250000x64 : Shape := ⟨2, ![250000, 64]⟩
abbrev S75000x128 : Shape := ⟨2, ![75000, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 500
  | .vmem => 10
  | .smem => 0
  | _ => 0

abbrev hbmTy0_0 (i : Nat) : BufTy := match i % 128 with
  | 0 => ⟨S100000x64, .f32⟩
  | 1 => ⟨S50000x64, .f32⟩
  | 2 => ⟨S2000000, .i32⟩
  | 3 => ⟨S2000000, .i32⟩
  | 4 => ⟨S2000000, .f32⟩
  | 5 => ⟨S150000x64, .f32⟩
  | 6 => ⟨S_, .f32⟩
  | 7 => ⟨S150000x64, .f32⟩
  | 8 => ⟨S250000, .i32⟩
  | 9 => ⟨S250000, .i32⟩
  | 10 => ⟨S250000, .f32⟩
  | 11 => ⟨S250000x1, .f32⟩
  | 12 => ⟨S_, .i32⟩
  | 13 => ⟨S250000, .i32⟩
  | 14 => ⟨S250000, .i1⟩
  | 15 => ⟨S_, .i32⟩
  | 16 => ⟨S250000, .i32⟩
  | 17 => ⟨S250000, .i32⟩
  | 18 => ⟨S250000, .i32⟩
  | 19 => ⟨S250000x1, .i32⟩
  | 20 => ⟨S250000x64, .f32⟩
  | 21 => ⟨S250000x64, .f32⟩
  | 22 => ⟨S250000x64, .f32⟩
  | 23 => ⟨S_, .f32⟩
  | 24 => ⟨S150000x64, .f32⟩
  | 25 => ⟨S250000x1, .i32⟩
  | 26 => ⟨S150000x64, .f32⟩
  | 27 => ⟨S150000x64, .f32⟩
  | 28 => ⟨S250000, .i32⟩
  | 29 => ⟨S250000, .i32⟩
  | 30 => ⟨S250000, .f32⟩
  | 31 => ⟨S250000x1, .f32⟩
  | 32 => ⟨S_, .i32⟩
  | 33 => ⟨S250000, .i32⟩
  | 34 => ⟨S250000, .i1⟩
  | 35 => ⟨S_, .i32⟩
  | 36 => ⟨S250000, .i32⟩
  | 37 => ⟨S250000, .i32⟩
  | 38 => ⟨S250000, .i32⟩
  | 39 => ⟨S250000x1, .i32⟩
  | 40 => ⟨S250000x64, .f32⟩
  | 41 => ⟨S250000x64, .f32⟩
  | 42 => ⟨S250000x64, .f32⟩
  | 43 => ⟨S_, .f32⟩
  | 44 => ⟨S150000x64, .f32⟩
  | 45 => ⟨S250000x1, .i32⟩
  | 46 => ⟨S150000x64, .f32⟩
  | 47 => ⟨S150000x64, .f32⟩
  | 48 => ⟨S250000, .i32⟩
  | 49 => ⟨S250000, .i32⟩
  | 50 => ⟨S250000, .f32⟩
  | 51 => ⟨S250000x1, .f32⟩
  | 52 => ⟨S_, .i32⟩
  | 53 => ⟨S250000, .i32⟩
  | 54 => ⟨S250000, .i1⟩
  | 55 => ⟨S_, .i32⟩
  | 56 => ⟨S250000, .i32⟩
  | 57 => ⟨S250000, .i32⟩
  | 58 => ⟨S250000, .i32⟩
  | 59 => ⟨S250000x1, .i32⟩
  | 60 => ⟨S250000x64, .f32⟩
  | 61 => ⟨S250000x64, .f32⟩
  | 62 => ⟨S250000x64, .f32⟩
  | 63 => ⟨S_, .f32⟩
  | 64 => ⟨S150000x64, .f32⟩
  | 65 => ⟨S250000x1, .i32⟩
  | 66 => ⟨S150000x64, .f32⟩
  | 67 => ⟨S150000x64, .f32⟩
  | 68 => ⟨S250000, .i32⟩
  | 69 => ⟨S250000, .i32⟩
  | 70 => ⟨S250000, .f32⟩
  | 71 => ⟨S250000x1, .f32⟩
  | 72 => ⟨S_, .i32⟩
  | 73 => ⟨S250000, .i32⟩
  | 74 => ⟨S250000, .i1⟩
  | 75 => ⟨S_, .i32⟩
  | 76 => ⟨S250000, .i32⟩
  | 77 => ⟨S250000, .i32⟩
  | 78 => ⟨S250000, .i32⟩
  | 79 => ⟨S250000x1, .i32⟩
  | 80 => ⟨S250000x64, .f32⟩
  | 81 => ⟨S250000x64, .f32⟩
  | 82 => ⟨S250000x64, .f32⟩
  | 83 => ⟨S_, .f32⟩
  | 84 => ⟨S150000x64, .f32⟩
  | 85 => ⟨S250000x1, .i32⟩
  | 86 => ⟨S150000x64, .f32⟩
  | 87 => ⟨S150000x64, .f32⟩
  | 88 => ⟨S250000, .i32⟩
  | 89 => ⟨S250000, .i32⟩
  | 90 => ⟨S250000, .f32⟩
  | 91 => ⟨S250000x1, .f32⟩
  | 92 => ⟨S_, .i32⟩
  | 93 => ⟨S250000, .i32⟩
  | 94 => ⟨S250000, .i1⟩
  | 95 => ⟨S_, .i32⟩
  | 96 => ⟨S250000, .i32⟩
  | 97 => ⟨S250000, .i32⟩
  | 98 => ⟨S250000, .i32⟩
  | 99 => ⟨S250000x1, .i32⟩
  | 100 => ⟨S250000x64, .f32⟩
  | 101 => ⟨S250000x64, .f32⟩
  | 102 => ⟨S250000x64, .f32⟩
  | 103 => ⟨S_, .f32⟩
  | 104 => ⟨S150000x64, .f32⟩
  | 105 => ⟨S250000x1, .i32⟩
  | 106 => ⟨S150000x64, .f32⟩
  | 107 => ⟨S150000x64, .f32⟩
  | 108 => ⟨S250000, .i32⟩
  | 109 => ⟨S250000, .i32⟩
  | 110 => ⟨S250000, .f32⟩
  | 111 => ⟨S250000x1, .f32⟩
  | 112 => ⟨S_, .i32⟩
  | 113 => ⟨S250000, .i32⟩
  | 114 => ⟨S250000, .i1⟩
  | 115 => ⟨S_, .i32⟩
  | 116 => ⟨S250000, .i32⟩
  | 117 => ⟨S250000, .i32⟩
  | 118 => ⟨S250000, .i32⟩
  | 119 => ⟨S250000x1, .i32⟩
  | 120 => ⟨S250000x64, .f32⟩
  | 121 => ⟨S250000x64, .f32⟩
  | 122 => ⟨S250000x64, .f32⟩
  | 123 => ⟨S_, .f32⟩
  | 124 => ⟨S150000x64, .f32⟩
  | 125 => ⟨S250000x1, .i32⟩
  | 126 => ⟨S150000x64, .f32⟩
  | 127 => ⟨S150000x64, .f32⟩
  | _ => ⟨S100000x64, .f32⟩

abbrev hbmTy0_1 (i : Nat) : BufTy := match i % 128 with
  | 0 => ⟨S250000, .i32⟩
  | 1 => ⟨S250000, .i32⟩
  | 2 => ⟨S250000, .f32⟩
  | 3 => ⟨S250000x1, .f32⟩
  | 4 => ⟨S_, .i32⟩
  | 5 => ⟨S250000, .i32⟩
  | 6 => ⟨S250000, .i1⟩
  | 7 => ⟨S_, .i32⟩
  | 8 => ⟨S250000, .i32⟩
  | 9 => ⟨S250000, .i32⟩
  | 10 => ⟨S250000, .i32⟩
  | 11 => ⟨S250000x1, .i32⟩
  | 12 => ⟨S250000x64, .f32⟩
  | 13 => ⟨S250000x64, .f32⟩
  | 14 => ⟨S250000x64, .f32⟩
  | 15 => ⟨S_, .f32⟩
  | 16 => ⟨S150000x64, .f32⟩
  | 17 => ⟨S250000x1, .i32⟩
  | 18 => ⟨S150000x64, .f32⟩
  | 19 => ⟨S150000x64, .f32⟩
  | 20 => ⟨S250000, .i32⟩
  | 21 => ⟨S250000, .i32⟩
  | 22 => ⟨S250000, .f32⟩
  | 23 => ⟨S250000x1, .f32⟩
  | 24 => ⟨S_, .i32⟩
  | 25 => ⟨S250000, .i32⟩
  | 26 => ⟨S250000, .i1⟩
  | 27 => ⟨S_, .i32⟩
  | 28 => ⟨S250000, .i32⟩
  | 29 => ⟨S250000, .i32⟩
  | 30 => ⟨S250000, .i32⟩
  | 31 => ⟨S250000x1, .i32⟩
  | 32 => ⟨S250000x64, .f32⟩
  | 33 => ⟨S250000x64, .f32⟩
  | 34 => ⟨S250000x64, .f32⟩
  | 35 => ⟨S_, .f32⟩
  | 36 => ⟨S150000x64, .f32⟩
  | 37 => ⟨S250000x1, .i32⟩
  | 38 => ⟨S150000x64, .f32⟩
  | 39 => ⟨S150000x64, .f32⟩
  | 40 => ⟨S_, .f32⟩
  | 41 => ⟨S150000x64, .f32⟩
  | 42 => ⟨S250000, .i32⟩
  | 43 => ⟨S250000, .i32⟩
  | 44 => ⟨S250000, .f32⟩
  | 45 => ⟨S250000x1, .f32⟩
  | 46 => ⟨S_, .i32⟩
  | 47 => ⟨S250000, .i32⟩
  | 48 => ⟨S250000, .i1⟩
  | 49 => ⟨S_, .i32⟩
  | 50 => ⟨S250000, .i32⟩
  | 51 => ⟨S250000, .i32⟩
  | 52 => ⟨S250000, .i32⟩
  | 53 => ⟨S250000x1, .i32⟩
  | 54 => ⟨S250000x64, .f32⟩
  | 55 => ⟨S250000x64, .f32⟩
  | 56 => ⟨S250000x64, .f32⟩
  | 57 => ⟨S_, .f32⟩
  | 58 => ⟨S150000x64, .f32⟩
  | 59 => ⟨S250000x1, .i32⟩
  | 60 => ⟨S150000x64, .f32⟩
  | 61 => ⟨S150000x64, .f32⟩
  | 62 => ⟨S250000, .i32⟩
  | 63 => ⟨S250000, .i32⟩
  | 64 => ⟨S250000, .f32⟩
  | 65 => ⟨S250000x1, .f32⟩
  | 66 => ⟨S_, .i32⟩
  | 67 => ⟨S250000, .i32⟩
  | 68 => ⟨S250000, .i1⟩
  | 69 => ⟨S_, .i32⟩
  | 70 => ⟨S250000, .i32⟩
  | 71 => ⟨S250000, .i32⟩
  | 72 => ⟨S250000, .i32⟩
  | 73 => ⟨S250000x1, .i32⟩
  | 74 => ⟨S250000x64, .f32⟩
  | 75 => ⟨S250000x64, .f32⟩
  | 76 => ⟨S250000x64, .f32⟩
  | 77 => ⟨S_, .f32⟩
  | 78 => ⟨S150000x64, .f32⟩
  | 79 => ⟨S250000x1, .i32⟩
  | 80 => ⟨S150000x64, .f32⟩
  | 81 => ⟨S150000x64, .f32⟩
  | 82 => ⟨S250000, .i32⟩
  | 83 => ⟨S250000, .i32⟩
  | 84 => ⟨S250000, .f32⟩
  | 85 => ⟨S250000x1, .f32⟩
  | 86 => ⟨S_, .i32⟩
  | 87 => ⟨S250000, .i32⟩
  | 88 => ⟨S250000, .i1⟩
  | 89 => ⟨S_, .i32⟩
  | 90 => ⟨S250000, .i32⟩
  | 91 => ⟨S250000, .i32⟩
  | 92 => ⟨S250000, .i32⟩
  | 93 => ⟨S250000x1, .i32⟩
  | 94 => ⟨S250000x64, .f32⟩
  | 95 => ⟨S250000x64, .f32⟩
  | 96 => ⟨S250000x64, .f32⟩
  | 97 => ⟨S_, .f32⟩
  | 98 => ⟨S150000x64, .f32⟩
  | 99 => ⟨S250000x1, .i32⟩
  | 100 => ⟨S150000x64, .f32⟩
  | 101 => ⟨S150000x64, .f32⟩
  | 102 => ⟨S250000, .i32⟩
  | 103 => ⟨S250000, .i32⟩
  | 104 => ⟨S250000, .f32⟩
  | 105 => ⟨S250000x1, .f32⟩
  | 106 => ⟨S_, .i32⟩
  | 107 => ⟨S250000, .i32⟩
  | 108 => ⟨S250000, .i1⟩
  | 109 => ⟨S_, .i32⟩
  | 110 => ⟨S250000, .i32⟩
  | 111 => ⟨S250000, .i32⟩
  | 112 => ⟨S250000, .i32⟩
  | 113 => ⟨S250000x1, .i32⟩
  | 114 => ⟨S250000x64, .f32⟩
  | 115 => ⟨S250000x64, .f32⟩
  | 116 => ⟨S250000x64, .f32⟩
  | 117 => ⟨S_, .f32⟩
  | 118 => ⟨S150000x64, .f32⟩
  | 119 => ⟨S250000x1, .i32⟩
  | 120 => ⟨S150000x64, .f32⟩
  | 121 => ⟨S150000x64, .f32⟩
  | 122 => ⟨S250000, .i32⟩
  | 123 => ⟨S250000, .i32⟩
  | 124 => ⟨S250000, .f32⟩
  | 125 => ⟨S250000x1, .f32⟩
  | 126 => ⟨S_, .i32⟩
  | 127 => ⟨S250000, .i32⟩
  | _ => ⟨S100000x64, .f32⟩

abbrev hbmTy0_2 (i : Nat) : BufTy := match i % 128 with
  | 0 => ⟨S250000, .i1⟩
  | 1 => ⟨S_, .i32⟩
  | 2 => ⟨S250000, .i32⟩
  | 3 => ⟨S250000, .i32⟩
  | 4 => ⟨S250000, .i32⟩
  | 5 => ⟨S250000x1, .i32⟩
  | 6 => ⟨S250000x64, .f32⟩
  | 7 => ⟨S250000x64, .f32⟩
  | 8 => ⟨S250000x64, .f32⟩
  | 9 => ⟨S_, .f32⟩
  | 10 => ⟨S150000x64, .f32⟩
  | 11 => ⟨S250000x1, .i32⟩
  | 12 => ⟨S150000x64, .f32⟩
  | 13 => ⟨S150000x64, .f32⟩
  | 14 => ⟨S250000, .i32⟩
  | 15 => ⟨S250000, .i32⟩
  | 16 => ⟨S250000, .f32⟩
  | 17 => ⟨S250000x1, .f32⟩
  | 18 => ⟨S_, .i32⟩
  | 19 => ⟨S250000, .i32⟩
  | 20 => ⟨S250000, .i1⟩
  | 21 => ⟨S_, .i32⟩
  | 22 => ⟨S250000, .i32⟩
  | 23 => ⟨S250000, .i32⟩
  | 24 => ⟨S250000, .i32⟩
  | 25 => ⟨S250000x1, .i32⟩
  | 26 => ⟨S250000x64, .f32⟩
  | 27 => ⟨S250000x64, .f32⟩
  | 28 => ⟨S250000x64, .f32⟩
  | 29 => ⟨S_, .f32⟩
  | 30 => ⟨S150000x64, .f32⟩
  | 31 => ⟨S250000x1, .i32⟩
  | 32 => ⟨S150000x64, .f32⟩
  | 33 => ⟨S150000x64, .f32⟩
  | 34 => ⟨S250000, .i32⟩
  | 35 => ⟨S250000, .i32⟩
  | 36 => ⟨S250000, .f32⟩
  | 37 => ⟨S250000x1, .f32⟩
  | 38 => ⟨S_, .i32⟩
  | 39 => ⟨S250000, .i32⟩
  | 40 => ⟨S250000, .i1⟩
  | 41 => ⟨S_, .i32⟩
  | 42 => ⟨S250000, .i32⟩
  | 43 => ⟨S250000, .i32⟩
  | 44 => ⟨S250000, .i32⟩
  | 45 => ⟨S250000x1, .i32⟩
  | 46 => ⟨S250000x64, .f32⟩
  | 47 => ⟨S250000x64, .f32⟩
  | 48 => ⟨S250000x64, .f32⟩
  | 49 => ⟨S_, .f32⟩
  | 50 => ⟨S150000x64, .f32⟩
  | 51 => ⟨S250000x1, .i32⟩
  | 52 => ⟨S150000x64, .f32⟩
  | 53 => ⟨S150000x64, .f32⟩
  | 54 => ⟨S250000, .i32⟩
  | 55 => ⟨S250000, .i32⟩
  | 56 => ⟨S250000, .f32⟩
  | 57 => ⟨S250000x1, .f32⟩
  | 58 => ⟨S_, .i32⟩
  | 59 => ⟨S250000, .i32⟩
  | 60 => ⟨S250000, .i1⟩
  | 61 => ⟨S_, .i32⟩
  | 62 => ⟨S250000, .i32⟩
  | 63 => ⟨S250000, .i32⟩
  | 64 => ⟨S250000, .i32⟩
  | 65 => ⟨S250000x1, .i32⟩
  | 66 => ⟨S250000x64, .f32⟩
  | 67 => ⟨S250000x64, .f32⟩
  | 68 => ⟨S250000x64, .f32⟩
  | 69 => ⟨S_, .f32⟩
  | 70 => ⟨S150000x64, .f32⟩
  | 71 => ⟨S250000x1, .i32⟩
  | 72 => ⟨S150000x64, .f32⟩
  | 73 => ⟨S150000x64, .f32⟩
  | 74 => ⟨S_, .f32⟩
  | 75 => ⟨S150000x64, .f32⟩
  | 76 => ⟨S250000, .i32⟩
  | 77 => ⟨S250000, .i32⟩
  | 78 => ⟨S250000, .f32⟩
  | 79 => ⟨S250000x1, .f32⟩
  | 80 => ⟨S_, .i32⟩
  | 81 => ⟨S250000, .i32⟩
  | 82 => ⟨S250000, .i1⟩
  | 83 => ⟨S_, .i32⟩
  | 84 => ⟨S250000, .i32⟩
  | 85 => ⟨S250000, .i32⟩
  | 86 => ⟨S250000, .i32⟩
  | 87 => ⟨S250000x1, .i32⟩
  | 88 => ⟨S250000x64, .f32⟩
  | 89 => ⟨S250000x64, .f32⟩
  | 90 => ⟨S250000x64, .f32⟩
  | 91 => ⟨S_, .f32⟩
  | 92 => ⟨S150000x64, .f32⟩
  | 93 => ⟨S250000x1, .i32⟩
  | 94 => ⟨S150000x64, .f32⟩
  | 95 => ⟨S150000x64, .f32⟩
  | 96 => ⟨S250000, .i32⟩
  | 97 => ⟨S250000, .i32⟩
  | 98 => ⟨S250000, .f32⟩
  | 99 => ⟨S250000x1, .f32⟩
  | 100 => ⟨S_, .i32⟩
  | 101 => ⟨S250000, .i32⟩
  | 102 => ⟨S250000, .i1⟩
  | 103 => ⟨S_, .i32⟩
  | 104 => ⟨S250000, .i32⟩
  | 105 => ⟨S250000, .i32⟩
  | 106 => ⟨S250000, .i32⟩
  | 107 => ⟨S250000x1, .i32⟩
  | 108 => ⟨S250000x64, .f32⟩
  | 109 => ⟨S250000x64, .f32⟩
  | 110 => ⟨S250000x64, .f32⟩
  | 111 => ⟨S_, .f32⟩
  | 112 => ⟨S150000x64, .f32⟩
  | 113 => ⟨S250000x1, .i32⟩
  | 114 => ⟨S150000x64, .f32⟩
  | 115 => ⟨S150000x64, .f32⟩
  | 116 => ⟨S250000, .i32⟩
  | 117 => ⟨S250000, .i32⟩
  | 118 => ⟨S250000, .f32⟩
  | 119 => ⟨S250000x1, .f32⟩
  | 120 => ⟨S_, .i32⟩
  | 121 => ⟨S250000, .i32⟩
  | 122 => ⟨S250000, .i1⟩
  | 123 => ⟨S_, .i32⟩
  | 124 => ⟨S250000, .i32⟩
  | 125 => ⟨S250000, .i32⟩
  | 126 => ⟨S250000, .i32⟩
  | 127 => ⟨S250000x1, .i32⟩
  | _ => ⟨S100000x64, .f32⟩

abbrev hbmTy0_3 (i : Nat) : BufTy := match i % 128 with
  | 0 => ⟨S250000x64, .f32⟩
  | 1 => ⟨S250000x64, .f32⟩
  | 2 => ⟨S250000x64, .f32⟩
  | 3 => ⟨S_, .f32⟩
  | 4 => ⟨S150000x64, .f32⟩
  | 5 => ⟨S250000x1, .i32⟩
  | 6 => ⟨S150000x64, .f32⟩
  | 7 => ⟨S150000x64, .f32⟩
  | 8 => ⟨S250000, .i32⟩
  | 9 => ⟨S250000, .i32⟩
  | 10 => ⟨S250000, .f32⟩
  | 11 => ⟨S250000x1, .f32⟩
  | 12 => ⟨S_, .i32⟩
  | 13 => ⟨S250000, .i32⟩
  | 14 => ⟨S250000, .i1⟩
  | 15 => ⟨S_, .i32⟩
  | 16 => ⟨S250000, .i32⟩
  | 17 => ⟨S250000, .i32⟩
  | 18 => ⟨S250000, .i32⟩
  | 19 => ⟨S250000x1, .i32⟩
  | 20 => ⟨S250000x64, .f32⟩
  | 21 => ⟨S250000x64, .f32⟩
  | 22 => ⟨S250000x64, .f32⟩
  | 23 => ⟨S_, .f32⟩
  | 24 => ⟨S150000x64, .f32⟩
  | 25 => ⟨S250000x1, .i32⟩
  | 26 => ⟨S150000x64, .f32⟩
  | 27 => ⟨S150000x64, .f32⟩
  | 28 => ⟨S250000, .i32⟩
  | 29 => ⟨S250000, .i32⟩
  | 30 => ⟨S250000, .f32⟩
  | 31 => ⟨S250000x1, .f32⟩
  | 32 => ⟨S_, .i32⟩
  | 33 => ⟨S250000, .i32⟩
  | 34 => ⟨S250000, .i1⟩
  | 35 => ⟨S_, .i32⟩
  | 36 => ⟨S250000, .i32⟩
  | 37 => ⟨S250000, .i32⟩
  | 38 => ⟨S250000, .i32⟩
  | 39 => ⟨S250000x1, .i32⟩
  | 40 => ⟨S250000x64, .f32⟩
  | 41 => ⟨S250000x64, .f32⟩
  | 42 => ⟨S250000x64, .f32⟩
  | 43 => ⟨S_, .f32⟩
  | 44 => ⟨S150000x64, .f32⟩
  | 45 => ⟨S250000x1, .i32⟩
  | 46 => ⟨S150000x64, .f32⟩
  | 47 => ⟨S150000x64, .f32⟩
  | 48 => ⟨S250000, .i32⟩
  | 49 => ⟨S250000, .i32⟩
  | 50 => ⟨S250000, .f32⟩
  | 51 => ⟨S250000x1, .f32⟩
  | 52 => ⟨S_, .i32⟩
  | 53 => ⟨S250000, .i32⟩
  | 54 => ⟨S250000, .i1⟩
  | 55 => ⟨S_, .i32⟩
  | 56 => ⟨S250000, .i32⟩
  | 57 => ⟨S250000, .i32⟩
  | 58 => ⟨S250000, .i32⟩
  | 59 => ⟨S250000x1, .i32⟩
  | 60 => ⟨S250000x64, .f32⟩
  | 61 => ⟨S250000x64, .f32⟩
  | 62 => ⟨S250000x64, .f32⟩
  | 63 => ⟨S_, .f32⟩
  | 64 => ⟨S150000x64, .f32⟩
  | 65 => ⟨S250000x1, .i32⟩
  | 66 => ⟨S150000x64, .f32⟩
  | 67 => ⟨S150000x64, .f32⟩
  | 68 => ⟨S250000, .i32⟩
  | 69 => ⟨S250000, .i32⟩
  | 70 => ⟨S250000, .f32⟩
  | 71 => ⟨S250000x1, .f32⟩
  | 72 => ⟨S_, .i32⟩
  | 73 => ⟨S250000, .i32⟩
  | 74 => ⟨S250000, .i1⟩
  | 75 => ⟨S_, .i32⟩
  | 76 => ⟨S250000, .i32⟩
  | 77 => ⟨S250000, .i32⟩
  | 78 => ⟨S250000, .i32⟩
  | 79 => ⟨S250000x1, .i32⟩
  | 80 => ⟨S250000x64, .f32⟩
  | 81 => ⟨S250000x64, .f32⟩
  | 82 => ⟨S250000x64, .f32⟩
  | 83 => ⟨S_, .f32⟩
  | 84 => ⟨S150000x64, .f32⟩
  | 85 => ⟨S250000x1, .i32⟩
  | 86 => ⟨S150000x64, .f32⟩
  | 87 => ⟨S150000x64, .f32⟩
  | 88 => ⟨S250000, .i32⟩
  | 89 => ⟨S250000, .i32⟩
  | 90 => ⟨S250000, .f32⟩
  | 91 => ⟨S250000x1, .f32⟩
  | 92 => ⟨S_, .i32⟩
  | 93 => ⟨S250000, .i32⟩
  | 94 => ⟨S250000, .i1⟩
  | 95 => ⟨S_, .i32⟩
  | 96 => ⟨S250000, .i32⟩
  | 97 => ⟨S250000, .i32⟩
  | 98 => ⟨S250000, .i32⟩
  | 99 => ⟨S250000x1, .i32⟩
  | 100 => ⟨S250000x64, .f32⟩
  | 101 => ⟨S250000x64, .f32⟩
  | 102 => ⟨S250000x64, .f32⟩
  | 103 => ⟨S_, .f32⟩
  | 104 => ⟨S150000x64, .f32⟩
  | 105 => ⟨S250000x1, .i32⟩
  | 106 => ⟨S150000x64, .f32⟩
  | 107 => ⟨S150000x64, .f32⟩
  | 108 => ⟨S75000x128, .f32⟩
  | 109 => ⟨S75000x128, .f32⟩
  | 110 => ⟨S75000x128, .f32⟩
  | 111 => ⟨S75000x128, .f32⟩
  | 112 => ⟨S75000x128, .f32⟩
  | 113 => ⟨S150000x64, .f32⟩
  | 114 => ⟨S100000x64, .f32⟩
  | 115 => ⟨S50000x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | _ => ⟨S100000x64, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_8 : Ref sig .tc := ⟨.hbm, 72, rfl⟩
abbrev main_v57 : Ref sig .tc := ⟨.hbm, 73, rfl⟩
abbrev main_v58 : Ref sig .tc := ⟨.hbm, 74, rfl⟩
abbrev main_c_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c_11 : Ref sig .tc := ⟨.hbm, 92, rfl⟩
abbrev main_v74 : Ref sig .tc := ⟨.hbm, 93, rfl⟩
abbrev main_v75 : Ref sig .tc := ⟨.hbm, 94, rfl⟩
abbrev main_c_12 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_13 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_c_14 : Ref sig .tc := ⟨.hbm, 112, rfl⟩
abbrev main_v91 : Ref sig .tc := ⟨.hbm, 113, rfl⟩
abbrev main_v92 : Ref sig .tc := ⟨.hbm, 114, rfl⟩
abbrev main_c_15 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_16 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_c_17 : Ref sig .tc := ⟨.hbm, 132, rfl⟩
abbrev main_v108 : Ref sig .tc := ⟨.hbm, 133, rfl⟩
abbrev main_v109 : Ref sig .tc := ⟨.hbm, 134, rfl⟩
abbrev main_c_18 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_19 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_c_20 : Ref sig .tc := ⟨.hbm, 152, rfl⟩
abbrev main_v125 : Ref sig .tc := ⟨.hbm, 153, rfl⟩
abbrev main_v126 : Ref sig .tc := ⟨.hbm, 154, rfl⟩
abbrev main_c_21 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_22 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_23 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_c_24 : Ref sig .tc := ⟨.hbm, 174, rfl⟩
abbrev main_v143 : Ref sig .tc := ⟨.hbm, 175, rfl⟩
abbrev main_v144 : Ref sig .tc := ⟨.hbm, 176, rfl⟩
abbrev main_c_25 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_26 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_c_27 : Ref sig .tc := ⟨.hbm, 194, rfl⟩
abbrev main_v160 : Ref sig .tc := ⟨.hbm, 195, rfl⟩
abbrev main_v161 : Ref sig .tc := ⟨.hbm, 196, rfl⟩
abbrev main_c_28 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_cst_29 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_c_30 : Ref sig .tc := ⟨.hbm, 214, rfl⟩
abbrev main_v177 : Ref sig .tc := ⟨.hbm, 215, rfl⟩
abbrev main_v178 : Ref sig .tc := ⟨.hbm, 216, rfl⟩
abbrev main_c_31 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_cst_32 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_c_33 : Ref sig .tc := ⟨.hbm, 234, rfl⟩
abbrev main_v194 : Ref sig .tc := ⟨.hbm, 235, rfl⟩
abbrev main_v195 : Ref sig .tc := ⟨.hbm, 236, rfl⟩
abbrev main_c_34 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_cst_35 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_c_36 : Ref sig .tc := ⟨.hbm, 254, rfl⟩
abbrev main_v211 : Ref sig .tc := ⟨.hbm, 255, rfl⟩
abbrev main_v212 : Ref sig .tc := ⟨.hbm, 256, rfl⟩
abbrev main_c_37 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_cst_38 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_v224 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_c_39 : Ref sig .tc := ⟨.hbm, 274, rfl⟩
abbrev main_v228 : Ref sig .tc := ⟨.hbm, 275, rfl⟩
abbrev main_v229 : Ref sig .tc := ⟨.hbm, 276, rfl⟩
abbrev main_c_40 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_cst_41 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_c_42 : Ref sig .tc := ⟨.hbm, 294, rfl⟩
abbrev main_v245 : Ref sig .tc := ⟨.hbm, 295, rfl⟩
abbrev main_v246 : Ref sig .tc := ⟨.hbm, 296, rfl⟩
abbrev main_c_43 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_cst_44 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_c_45 : Ref sig .tc := ⟨.hbm, 314, rfl⟩
abbrev main_v262 : Ref sig .tc := ⟨.hbm, 315, rfl⟩
abbrev main_v263 : Ref sig .tc := ⟨.hbm, 316, rfl⟩
abbrev main_c_46 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_cst_47 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_cst_48 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_c_49 : Ref sig .tc := ⟨.hbm, 336, rfl⟩
abbrev main_v280 : Ref sig .tc := ⟨.hbm, 337, rfl⟩
abbrev main_v281 : Ref sig .tc := ⟨.hbm, 338, rfl⟩
abbrev main_c_50 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_cst_51 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_v296 : Ref sig .tc := ⟨.hbm, 355, rfl⟩
abbrev main_c_52 : Ref sig .tc := ⟨.hbm, 356, rfl⟩
abbrev main_v297 : Ref sig .tc := ⟨.hbm, 357, rfl⟩
abbrev main_v298 : Ref sig .tc := ⟨.hbm, 358, rfl⟩
abbrev main_c_53 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_cst_54 : Ref sig .tc := ⟨.hbm, 367, rfl⟩
abbrev main_v306 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_v310 : Ref sig .tc := ⟨.hbm, 372, rfl⟩
abbrev main_v311 : Ref sig .tc := ⟨.hbm, 373, rfl⟩
abbrev main_v312 : Ref sig .tc := ⟨.hbm, 374, rfl⟩
abbrev main_v313 : Ref sig .tc := ⟨.hbm, 375, rfl⟩
abbrev main_c_55 : Ref sig .tc := ⟨.hbm, 376, rfl⟩
abbrev main_v314 : Ref sig .tc := ⟨.hbm, 377, rfl⟩
abbrev main_v315 : Ref sig .tc := ⟨.hbm, 378, rfl⟩
abbrev main_c_56 : Ref sig .tc := ⟨.hbm, 379, rfl⟩
abbrev main_v316 : Ref sig .tc := ⟨.hbm, 380, rfl⟩
abbrev main_v317 : Ref sig .tc := ⟨.hbm, 381, rfl⟩
abbrev main_v318 : Ref sig .tc := ⟨.hbm, 382, rfl⟩
abbrev main_v319 : Ref sig .tc := ⟨.hbm, 383, rfl⟩
abbrev main_v320 : Ref sig .tc := ⟨.hbm, 384, rfl⟩
abbrev main_v321 : Ref sig .tc := ⟨.hbm, 385, rfl⟩
abbrev main_v322 : Ref sig .tc := ⟨.hbm, 386, rfl⟩
abbrev main_cst_57 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_c_58 : Ref sig .tc := ⟨.hbm, 396, rfl⟩
abbrev main_v331 : Ref sig .tc := ⟨.hbm, 397, rfl⟩
abbrev main_v332 : Ref sig .tc := ⟨.hbm, 398, rfl⟩
abbrev main_c_59 : Ref sig .tc := ⟨.hbm, 399, rfl⟩
abbrev main_v333 : Ref sig .tc := ⟨.hbm, 400, rfl⟩
abbrev main_v334 : Ref sig .tc := ⟨.hbm, 401, rfl⟩
abbrev main_v335 : Ref sig .tc := ⟨.hbm, 402, rfl⟩
abbrev main_v336 : Ref sig .tc := ⟨.hbm, 403, rfl⟩
abbrev main_v337 : Ref sig .tc := ⟨.hbm, 404, rfl⟩
abbrev main_v338 : Ref sig .tc := ⟨.hbm, 405, rfl⟩
abbrev main_v339 : Ref sig .tc := ⟨.hbm, 406, rfl⟩
abbrev main_cst_60 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_c_61 : Ref sig .tc := ⟨.hbm, 416, rfl⟩
abbrev main_v348 : Ref sig .tc := ⟨.hbm, 417, rfl⟩
abbrev main_v349 : Ref sig .tc := ⟨.hbm, 418, rfl⟩
abbrev main_c_62 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_cst_63 : Ref sig .tc := ⟨.hbm, 427, rfl⟩
abbrev main_v357 : Ref sig .tc := ⟨.hbm, 428, rfl⟩
abbrev main_v358 : Ref sig .tc := ⟨.hbm, 429, rfl⟩
abbrev main_v359 : Ref sig .tc := ⟨.hbm, 430, rfl⟩
abbrev main_v360 : Ref sig .tc := ⟨.hbm, 431, rfl⟩
abbrev main_v361 : Ref sig .tc := ⟨.hbm, 432, rfl⟩
abbrev main_v362 : Ref sig .tc := ⟨.hbm, 433, rfl⟩
abbrev main_v363 : Ref sig .tc := ⟨.hbm, 434, rfl⟩
abbrev main_v364 : Ref sig .tc := ⟨.hbm, 435, rfl⟩
abbrev main_c_64 : Ref sig .tc := ⟨.hbm, 436, rfl⟩
abbrev main_v365 : Ref sig .tc := ⟨.hbm, 437, rfl⟩
abbrev main_v366 : Ref sig .tc := ⟨.hbm, 438, rfl⟩
abbrev main_c_65 : Ref sig .tc := ⟨.hbm, 439, rfl⟩
abbrev main_v367 : Ref sig .tc := ⟨.hbm, 440, rfl⟩
abbrev main_v368 : Ref sig .tc := ⟨.hbm, 441, rfl⟩
abbrev main_v369 : Ref sig .tc := ⟨.hbm, 442, rfl⟩
abbrev main_v370 : Ref sig .tc := ⟨.hbm, 443, rfl⟩
abbrev main_v371 : Ref sig .tc := ⟨.hbm, 444, rfl⟩
abbrev main_v372 : Ref sig .tc := ⟨.hbm, 445, rfl⟩
abbrev main_v373 : Ref sig .tc := ⟨.hbm, 446, rfl⟩
abbrev main_cst_66 : Ref sig .tc := ⟨.hbm, 447, rfl⟩
abbrev main_v374 : Ref sig .tc := ⟨.hbm, 448, rfl⟩
abbrev main_v375 : Ref sig .tc := ⟨.hbm, 449, rfl⟩
abbrev main_v376 : Ref sig .tc := ⟨.hbm, 450, rfl⟩
abbrev main_v377 : Ref sig .tc := ⟨.hbm, 451, rfl⟩
abbrev main_v378 : Ref sig .tc := ⟨.hbm, 452, rfl⟩
abbrev main_v379 : Ref sig .tc := ⟨.hbm, 453, rfl⟩
abbrev main_v380 : Ref sig .tc := ⟨.hbm, 454, rfl⟩
abbrev main_v381 : Ref sig .tc := ⟨.hbm, 455, rfl⟩
abbrev main_c_67 : Ref sig .tc := ⟨.hbm, 456, rfl⟩
abbrev main_v382 : Ref sig .tc := ⟨.hbm, 457, rfl⟩
abbrev main_v383 : Ref sig .tc := ⟨.hbm, 458, rfl⟩
abbrev main_c_68 : Ref sig .tc := ⟨.hbm, 459, rfl⟩
abbrev main_v384 : Ref sig .tc := ⟨.hbm, 460, rfl⟩
abbrev main_v385 : Ref sig .tc := ⟨.hbm, 461, rfl⟩
abbrev main_v386 : Ref sig .tc := ⟨.hbm, 462, rfl⟩
abbrev main_v387 : Ref sig .tc := ⟨.hbm, 463, rfl⟩
abbrev main_v388 : Ref sig .tc := ⟨.hbm, 464, rfl⟩
abbrev main_v389 : Ref sig .tc := ⟨.hbm, 465, rfl⟩
abbrev main_v390 : Ref sig .tc := ⟨.hbm, 466, rfl⟩
abbrev main_cst_69 : Ref sig .tc := ⟨.hbm, 467, rfl⟩
abbrev main_v391 : Ref sig .tc := ⟨.hbm, 468, rfl⟩
abbrev main_v392 : Ref sig .tc := ⟨.hbm, 469, rfl⟩
abbrev main_v393 : Ref sig .tc := ⟨.hbm, 470, rfl⟩
abbrev main_v394 : Ref sig .tc := ⟨.hbm, 471, rfl⟩
abbrev main_v395 : Ref sig .tc := ⟨.hbm, 472, rfl⟩
abbrev main_v396 : Ref sig .tc := ⟨.hbm, 473, rfl⟩
abbrev main_v397 : Ref sig .tc := ⟨.hbm, 474, rfl⟩
abbrev main_v398 : Ref sig .tc := ⟨.hbm, 475, rfl⟩
abbrev main_c_70 : Ref sig .tc := ⟨.hbm, 476, rfl⟩
abbrev main_v399 : Ref sig .tc := ⟨.hbm, 477, rfl⟩
abbrev main_v400 : Ref sig .tc := ⟨.hbm, 478, rfl⟩
abbrev main_c_71 : Ref sig .tc := ⟨.hbm, 479, rfl⟩
abbrev main_v401 : Ref sig .tc := ⟨.hbm, 480, rfl⟩
abbrev main_v402 : Ref sig .tc := ⟨.hbm, 481, rfl⟩
abbrev main_v403 : Ref sig .tc := ⟨.hbm, 482, rfl⟩
abbrev main_v404 : Ref sig .tc := ⟨.hbm, 483, rfl⟩
abbrev main_v405 : Ref sig .tc := ⟨.hbm, 484, rfl⟩
abbrev main_v406 : Ref sig .tc := ⟨.hbm, 485, rfl⟩
abbrev main_v407 : Ref sig .tc := ⟨.hbm, 486, rfl⟩
abbrev main_cst_72 : Ref sig .tc := ⟨.hbm, 487, rfl⟩
abbrev main_v408 : Ref sig .tc := ⟨.hbm, 488, rfl⟩
abbrev main_v409 : Ref sig .tc := ⟨.hbm, 489, rfl⟩
abbrev main_v410 : Ref sig .tc := ⟨.hbm, 490, rfl⟩
abbrev main_v411 : Ref sig .tc := ⟨.hbm, 491, rfl⟩
abbrev main_v412 : Ref sig .tc := ⟨.hbm, 492, rfl⟩
abbrev main_v413 : Ref sig .tc := ⟨.hbm, 493, rfl⟩
abbrev main_v414 : Ref sig .tc := ⟨.hbm, 494, rfl⟩
abbrev main_v415 : Ref sig .tc := ⟨.hbm, 495, rfl⟩
abbrev main_v416 : Ref sig .tc := ⟨.hbm, 496, rfl⟩
abbrev main_v417 : Ref sig .tc := ⟨.hbm, 497, rfl⟩
abbrev main_v418 : Ref sig .tc := ⟨.hbm, 498, rfl⟩
abbrev main_v419 : Ref sig .tc := ⟨.hbm, 499, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S100000x64_S50000x64_S150000x64_d0 : Shape.Concatenates [S100000x64, S50000x64] S150000x64 0
  bcast_S_S150000x64 : S_.BroadcastsInDim S150000x64 (![] : Fin 0 → Fin S150000x64.rank)
  slices_S2000000_S250000_0 : S2000000.Slices ![0] S250000
  bcast_S250000_S250000x1_0 : S250000.BroadcastsInDim S250000x1 (![0] : Fin 1 → Fin S250000x1.rank)
  bcast_S_S250000 : S_.BroadcastsInDim S250000 (![] : Fin 0 → Fin S250000.rank)
  bcast_S250000x1_S250000x64_0_1 : S250000x1.BroadcastsInDim S250000x64 (![0, 1] : Fin 2 → Fin S250000x64.rank)
  slices_S2000000_S250000_250000 : S2000000.Slices ![250000] S250000
  slices_S2000000_S250000_500000 : S2000000.Slices ![500000] S250000
  slices_S2000000_S250000_750000 : S2000000.Slices ![750000] S250000
  slices_S2000000_S250000_1000000 : S2000000.Slices ![1000000] S250000
  slices_S2000000_S250000_1250000 : S2000000.Slices ![1250000] S250000
  slices_S2000000_S250000_1500000 : S2000000.Slices ![1500000] S250000
  slices_S2000000_S250000_1750000 : S2000000.Slices ![1750000] S250000
  shapeCasts_S150000x64_S75000x128 : S150000x64.ShapeCasts S75000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  iota_S5000x128_d1_w32 : S5000x128.Iotas .tc 32 [1]
  reduces_S5000x128_S5000 : S5000x128.Reduces [1] S5000
  shapeCasts_S5000_S5000x1 : S5000.ShapeCasts S5000x1
  shapeCasts_S5000x1_S5000x1 : S5000x1.ShapeCasts S5000x1
  broadcasts_S5000x1_S5000x128 : S5000x1.Broadcasts S5000x128
  shapeCasts_S75000x128_S150000x64 : S75000x128.ShapeCasts S150000x64
  slices_S150000x64_S100000x64_0_0 : S150000x64.Slices ![0, 0] S100000x64
  slices_S150000x64_S50000x64_100000_0 : S150000x64.Slices ![100000, 0] S50000x64
  gather_S150000x64_S250000x1_S250000x64_1_0_n_n_0_1_164_wf : GatherDims.WF S150000x64 S250000x1 S250000x64 [1] [0] [] [0] [] 1 ![1, 64]
  scatter_S150000x64_S250000x1_S250000x64_1_0_0_1_wf : ScatterDims.WF S150000x64 S250000x1 S250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S75000x128.size a
  hwx0_0 : ∀ i : grid0.Coords, EltTy.bits .f32 = 32 ∨ (Rect.block (s := S75000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S75000x128.size a
  hwx0_1 : ∀ i : grid0.Coords, EltTy.bits .f32 = 32 ∨ (Rect.block (s := S75000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S75000x128.size a
  hwx0_2 : ∀ i : grid0.Coords, EltTy.bits .f32 = 32 ∨ (Rect.block (s := S75000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S75000x128.size a
  hwx0_3 : ∀ i : grid0.Coords, EltTy.bits .f32 = 32 ∨ (Rect.block (s := S75000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S75000x128.size a
  hwx0_4 : ∀ i : grid0.Coords, EltTy.bits .f32 = 32 ∨ (Rect.block (s := S75000x128) S5000x128.size (cc0_transform_4 i) (hinb0_4 i)).WholeWords (EltTy.packing .f32)

variable [Facts₀]

def gather_S150000x64_S250000x1_S250000x64_1_0_n_n_0_1_164 : GatherDims S150000x64 S250000x1 S250000x64 where
  offsetDims := [1]
  collapsedSliceDims := [0]
  operandBatchingDims := []
  startIndicesBatchingDims := []
  startIndexMap := [0]
  indexVectorDim := 1
  sliceSizes := ![1, 64]
  wf := gather_S150000x64_S250000x1_S250000x64_1_0_n_n_0_1_164_wf
def scatter_S150000x64_S250000x1_S250000x64_1_0_0_1 : ScatterDims S150000x64 S250000x1 S250000x64 where
  updateWindowDims := [1]
  insertedWindowDims := [0]
  scatterDimsToOperandDims := [0]
  indexVectorDim := 1
  wf := scatter_S150000x64_S250000x1_S250000x64_1_0_0_1_wf

abbrev win0_0 : Pipeline.Window sig grid0 :=
  Pipeline.Window.ofSpec (Memref.whole main_v412) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v413) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v414) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v415) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v416) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where
  halias0_4 : Pipeline.Aliased win0 0 4

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S150000 : Shape := ⟨1, ![150000]⟩
abbrev S150000x1 : Shape := ⟨2, ![150000, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .i32⟩
  | .hbm, ⟨3, _⟩ => ⟨S2000000, .i32⟩
  | .hbm, ⟨4, _⟩ => ⟨S2000000, .f32⟩
  | .hbm, ⟨5, _⟩ => ⟨S150000x64, .f32⟩
  | .hbm, ⟨6, _⟩ => ⟨S2000000x1, .f32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S2000000x64, .f32⟩
  | .hbm, ⟨16, _⟩ => ⟨S2000000x64, .f32⟩
  | .hbm, ⟨17, _⟩ => ⟨S2000000x64, .f32⟩
  | .hbm, ⟨18, _⟩ => ⟨S_, .f32⟩
  | .hbm, ⟨19, _⟩ => ⟨S150000x64, .f32⟩
  | .hbm, ⟨20, _⟩ => ⟨S2000000x1, .i32⟩
  | .hbm, ⟨21, _⟩ => ⟨S150000x64, .f32⟩
  | .hbm, ⟨22, _⟩ => ⟨S150000x64, .f32⟩
  | .hbm, ⟨23, _⟩ => ⟨S_, .f32⟩
  | .hbm, ⟨24, _⟩ => ⟨S150000, .f32⟩
  | .hbm, ⟨25, _⟩ => ⟨S150000x1, .f32⟩
  | .hbm, ⟨26, _⟩ => ⟨S150000x1, .f32⟩
  | .hbm, ⟨27, _⟩ => ⟨S_, .f32⟩
  | .hbm, ⟨28, _⟩ => ⟨S150000x1, .f32⟩
  | .hbm, ⟨29, _⟩ => ⟨S150000x1, .f32⟩
  | .hbm, ⟨30, _⟩ => ⟨S150000x64, .f32⟩
  | .hbm, ⟨31, _⟩ => ⟨S150000x64, .f32⟩
  | .hbm, ⟨32, _⟩ => ⟨S150000x64, .f32⟩
  | .hbm, ⟨33, _⟩ => ⟨S2000000x1, .f32⟩
  | .hbm, ⟨34, _⟩ => ⟨S_, .i32⟩
  | .hbm, ⟨35, _⟩ => ⟨S2000000, .i32⟩
  | .hbm, ⟨36, _⟩ => ⟨S2000000, .i1⟩
  | .hbm, ⟨37, _⟩ => ⟨S_, .i32⟩
  | .hbm, ⟨38, _⟩ => ⟨S2000000, .i32⟩
  | .hbm, ⟨39, _⟩ => ⟨S2000000, .i32⟩
  | .hbm, ⟨40, _⟩ => ⟨S2000000, .i32⟩
  | .hbm, ⟨41, _⟩ => ⟨S2000000x1, .i32⟩
  | .hbm, ⟨42, _⟩ => ⟨S2000000x64, .f32⟩
  | .hbm, ⟨43, _⟩ => ⟨S2000000x64, .f32⟩
  | .hbm, ⟨44, _⟩ => ⟨S2000000x64, .f32⟩
  | .hbm, ⟨45, _⟩ => ⟨S_, .f32⟩
  | .hbm, ⟨46, _⟩ => ⟨S150000x64, .f32⟩
  | .hbm, ⟨47, _⟩ => ⟨S2000000x1, .i32⟩
  | .hbm, ⟨48, _⟩ => ⟨S150000x64, .f32⟩
  | .hbm, ⟨49, _⟩ => ⟨S150000x64, .f32⟩
  | .hbm, ⟨50, _⟩ => ⟨S_, .f32⟩
  | .hbm, ⟨51, _⟩ => ⟨S150000, .f32⟩
  | .hbm, ⟨52, _⟩ => ⟨S150000x1, .f32⟩
  | .hbm, ⟨53, _⟩ => ⟨S150000x1, .f32⟩
  | .hbm, ⟨54, _⟩ => ⟨S_, .f32⟩
  | .hbm, ⟨55, _⟩ => ⟨S150000x1, .f32⟩
  | .hbm, ⟨56, _⟩ => ⟨S150000x1, .f32⟩
  | .hbm, ⟨57, _⟩ => ⟨S150000x64, .f32⟩
  | .hbm, ⟨58, _⟩ => ⟨S150000x64, .f32⟩
  | .hbm, ⟨59, _⟩ => ⟨S150000x64, .f32⟩
  | .hbm, ⟨60, _⟩ => ⟨S2000000x1, .f32⟩
  | .hbm, ⟨61, _⟩ => ⟨S_, .i32⟩
  | .hbm, ⟨62, _⟩ => ⟨S2000000, .i32⟩
  | .hbm, ⟨63, _⟩ => ⟨S2000000, .i1⟩
  | .hbm, ⟨64, _⟩ => ⟨S_, .i32⟩
  | .hbm, ⟨65, _⟩ => ⟨S2000000, .i32⟩
  | .hbm, ⟨66, _⟩ => ⟨S2000000, .i32⟩
  | .hbm, ⟨67, _⟩ => ⟨S2000000, .i32⟩
  | .hbm, ⟨68, _⟩ => ⟨S2000000x1, .i32⟩
  | .hbm, ⟨69, _⟩ => ⟨S2000000x64, .f32⟩
  | .hbm, ⟨70, _⟩ => ⟨S2000000x64, .f32⟩
  | .hbm, ⟨71, _⟩ => ⟨S2000000x64, .f32⟩
  | .hbm, ⟨72, _⟩ => ⟨S_, .f32⟩
  | .hbm, ⟨73, _⟩ => ⟨S150000x64, .f32⟩
  | .hbm, ⟨74, _⟩ => ⟨S2000000x1, .i32⟩
  | .hbm, ⟨75, _⟩ => ⟨S150000x64, .f32⟩
  | .hbm, ⟨76, _⟩ => ⟨S150000x64, .f32⟩
  | .hbm, ⟨77, _⟩ => ⟨S_, .f32⟩
  | .hbm, ⟨78, _⟩ => ⟨S150000, .f32⟩
  | .hbm, ⟨79, _⟩ => ⟨S150000x1, .f32⟩
  | .hbm, ⟨80, _⟩ => ⟨S150000x1, .f32⟩
  | .hbm, ⟨81, _⟩ => ⟨S_, .f32⟩
  | .hbm, ⟨82, _⟩ => ⟨S150000x1, .f32⟩
  | .hbm, ⟨83, _⟩ => ⟨S150000x1, .f32⟩
  | .hbm, ⟨84, _⟩ => ⟨S150000x64, .f32⟩
  | .hbm, ⟨85, _⟩ => ⟨S150000x64, .f32⟩
  | .hbm, ⟨86, _⟩ => ⟨S150000x64, .f32⟩
  | .hbm, ⟨87, _⟩ => ⟨S_, .f32⟩
  | .hbm, ⟨88, _⟩ => ⟨S150000x64, .f32⟩
  | .hbm, ⟨89, _⟩ => ⟨S150000x64, .f32⟩
  | .hbm, ⟨90, _⟩ => ⟨S100000x64, .f32⟩
  | .hbm, ⟨91, _⟩ => ⟨S50000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_call2_v2 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S150000x64_S100000x64_0_0 : S150000x64.Slices ![0, 0] S100000x64
  slices_S150000x64_S50000x64_100000_0 : S150000x64.Slices ![100000, 0] S50000x64
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

class Facts : Prop extends Facts₀ where

variable [Facts]
-- ==== Proof.HostLayers.lean ====
/-
  The propagation step x ↦ A·x of the graph, as the two programs spell it on the host, A being the sparse matrix the
  edge list (rows, cols, vals) stands for: edge e adds vals e · x[cols e, ·] to row rows e of the result.

  One program takes all 2,000,000 edges in one gather, one product and one scatter-add into a zero array; the other
  cuts the edge list into eight consecutive runs of 250,000 edges, forms the same scatter-add for each run into a zero
  array of its own, and adds the eight arrays one after the other onto a zero array. Both wrap a negative column index
  by adding the number of rows before the gather. This module only NAMES those two terms (and the wrap), operation for
  operation as the programs print them, so that the long host programs can be read as three applications of one
  function each; that the two functions are equal is proved elsewhere.
-/
import proofs.«153858_j60035052863927_2_alg».proof.KernelIdeal
import proofs.«153858_j60035052863927_2_alg».proof.ReferenceIdeal
import proofs.«153858_j60035052863927_2_alg».proof.Proof.Gen.KernelIdeal
import proofs.«153858_j60035052863927_2_alg».proof.Proof.Gen.ReferenceIdeal

noncomputable section

namespace Cert.Bridge

open Idealize.ShloMosaic Idealize.ShloMosaic.TcCoe

variable {F : FTy → Type} [FloatOps F]

/-! ## The run-by-run spelling -/

section Runs

open Cert.KernelIdeal Cert.KernelIdeal.Facts₀

/-- A zero array of the nodes' shape. -/
def zerosK : (⟨S150000x64, .f32⟩ : BufTy).Contents (Elt F) :=
  broadcastInDim S150000x64 ![] bcast_S_S150000x64 (constant S_ .f32 0x00000000#32)

/-- A run's column indices with the negative ones moved up by the number of rows. -/
def wrapK (cols : (⟨S250000, .i32⟩ : BufTy).Contents (Elt F)) : (⟨S250000, .i32⟩ : BufTy).Contents (Elt F) :=
  select (cmpi .slt cols (broadcastInDim S250000 ![] bcast_S_S250000 (constantI S_ 32 0#32)))
    (addi cols (broadcastInDim S250000 ![] bcast_S_S250000 (constantI S_ 32 150000#32))) cols

/-- The run of 250,000 edges starting at edge `off`: the rows of `x` its columns name, each times its edge's value,
    added by destination row into a zero array. -/
def runK (off : Nat) (hs : S2000000.Slices ![off] S250000)
    (rows cols : (⟨S2000000, .i32⟩ : BufTy).Contents (Elt F)) (vals : (⟨S2000000, .f32⟩ : BufTy).Contents (Elt F))
    (x : (⟨S150000x64, .f32⟩ : BufTy).Contents (Elt F)) : (⟨S150000x64, .f32⟩ : BufTy).Contents (Elt F) :=
  Host.scatterAdd scatter_S150000x64_S250000x1_S250000x64_1_0_0_1 (zerosK (F := F))
    (broadcastInDim S250000x1 ![0] bcast_S250000_S250000x1_0 (extractStridedSlice S250000 ![off] rows hs))
    (mulf
      (broadcastInDim S250000x64 ![0, 1] bcast_S250000x1_S250000x64_0_1
        (broadcastInDim S250000x1 ![0] bcast_S250000_S250000x1_0 (extractStridedSlice S250000 ![off] vals hs)))
      (Host.gather gather_S150000x64_S250000x1_S250000x64_1_0_n_n_0_1_164 x
        (broadcastInDim S250000x1 ![0] bcast_S250000_S250000x1_0 (wrapK (F := F) (extractStridedSlice S250000 ![off] cols hs)))))

/-- The eight runs added, in order, onto a zero array. -/
def layerK (rows cols : (⟨S2000000, .i32⟩ : BufTy).Contents (Elt F)) (vals : (⟨S2000000, .f32⟩ : BufTy).Contents (Elt F))
    (x : (⟨S150000x64, .f32⟩ : BufTy).Contents (Elt F)) : (⟨S150000x64, .f32⟩ : BufTy).Contents (Elt F) :=
  addf (addf (addf (addf (addf (addf (addf (addf (zerosK (F := F))
    (runK 0 slices_S2000000_S250000_0 rows cols vals x))
    (runK 250000 slices_S2000000_S250000_250000 rows cols vals x))
    (runK 500000 slices_S2000000_S250000_500000 rows cols vals x))
    (runK 750000 slices_S2000000_S250000_750000 rows cols vals x))
    (runK 1000000 slices_S2000000_S250000_1000000 rows cols vals x))
    (runK 1250000 slices_S2000000_S250000_1250000 rows cols vals x))
    (runK 1500000 slices_S2000000_S250000_1500000 rows cols vals x))
    (runK 1750000 slices_S2000000_S250000_1750000 rows cols vals x)

/-- The node table: the two embedding tables one above the other. -/
def tableK (u : (⟨S100000x64, .f32⟩ : BufTy).Contents (Elt F)) (v : (⟨S50000x64, .f32⟩ : BufTy).Contents (Elt F)) :
    (⟨S150000x64, .f32⟩ : BufTy).Contents (Elt F) :=
  concatenate S150000x64 0 [⟨S100000x64, u⟩, ⟨S50000x64, v⟩] concatenates_S100000x64_S50000x64_S150000x64_d0

/-- Two consecutive node rows laid side by side in one row of 128 (a row-major reshape). -/
def packK (x : (⟨S150000x64, .f32⟩ : BufTy).Contents (Elt F)) : (⟨S75000x128, .f32⟩ : BufTy).Contents (Elt F) :=
  shapeCast S75000x128 x shapeCasts_S150000x64_S75000x128

/-- The reshape back: each row of 128 cut into its two node rows. -/
def unpackK (y : (⟨S75000x128, .f32⟩ : BufTy).Contents (Elt F)) : (⟨S150000x64, .f32⟩ : BufTy).Contents (Elt F) :=
  shapeCast S150000x64 y shapeCasts_S75000x128_S150000x64

end Runs

/-! ## The one-pass spelling -/

section Whole

open Cert.ReferenceIdeal Cert.ReferenceIdeal.Facts₀

/-- All column indices with the negative ones moved up by the number of rows. -/
def wrapR (cols : (⟨S2000000, .i32⟩ : BufTy).Contents (Elt F)) : (⟨S2000000, .i32⟩ : BufTy).Contents (Elt F) :=
  select (cmpi .slt cols (broadcastInDim S2000000 ![] bcast_S_S2000000 (constantI S_ 32 0#32)))
    (addi cols (broadcastInDim S2000000 ![] bcast_S_S2000000 (constantI S_ 32 150000#32))) cols

/-- All edges at once: the rows of `x` the columns name, each times its edge's value, added by destination row into a
    zero array. -/
def layerR (rows cols : (⟨S2000000, .i32⟩ : BufTy).Contents (Elt F)) (vals : (⟨S2000000, .f32⟩ : BufTy).Contents (Elt F))
    (x : (⟨S150000x64, .f32⟩ : BufTy).Contents (Elt F)) : (⟨S150000x64, .f32⟩ : BufTy).Contents (Elt F) :=
  Host.scatterAdd scatter_S150000x64_S2000000x1_S2000000x64_1_0_0_1
    (broadcastInDim S150000x64 ![] bcast_S_S150000x64 (constant S_ .f32 0x00000000#32))
    (broadcastInDim S2000000x1 ![0] bcast_S2000000_S2000000x1_0 rows)
    (mulf
      (broadcastInDim S2000000x64 ![0, 1] bcast_S2000000x1_S2000000x64_0_1
        (broadcastInDim S2000000x1 ![0] bcast_S2000000_S2000000x1_0 vals))
      (Host.gather gather_S150000x64_S2000000x1_S2000000x64_1_0_n_n_0_1_164 x
        (broadcastInDim S2000000x1 ![0] bcast_S2000000_S2000000x1_0 (wrapR (F := F) cols))))

/-- A layer array with every node row divided by its Euclidean norm, the norm floored at a small positive word:
    h / max(sqrt(0 + sum of squares along the row), floor), the norm a column broadcast along the row. -/
def normedR (h : (⟨S150000x64, .f32⟩ : BufTy).Contents (Elt F)) : (⟨S150000x64, .f32⟩ : BufTy).Contents (Elt F) :=
  Host.divf h (broadcastInDim S150000x64 ![0, 1] bcast_S150000x1_S150000x64_0_1
    (maximumf
      (Host.sqrt (broadcastInDim S150000x1 ![0] bcast_S150000_S150000x1_0
        (Host.reduceAdd (mulf h h) (constant S_ .f32 0x00000000#32) reducesTo_S150000x64_S150000_d1 h_S_)))
      (broadcastInDim S150000x1 ![] bcast_S_S150000x1 (constant S_ .f32 0x2B8CBCCC#32))))

/-- The pooled node array: the base plus the three normalised layers, added in order, divided by the word 4. -/
def poolR (b h1 h2 h3 : (⟨S150000x64, .f32⟩ : BufTy).Contents (Elt F)) : (⟨S150000x64, .f32⟩ : BufTy).Contents (Elt F) :=
  Host.divf (addf (addf (addf b (normedR h1)) (normedR h2)) (normedR h3))
    (broadcastInDim S150000x64 ![] bcast_S_S150000x64 (constant S_ .f32 0x40800000#32))

end Whole

end Cert.Bridge

end
-- ==== Proof.HostRead.lean ====
/-
  The four arrays the pooling region is launched on, read off the host operations that run before it.

  Those operations build the node table (the two embedding tables one above the other), then three times the
  run-by-run propagation step of HostLayers.lean — eight runs of 250000 edges each, every run sliced out of the edge
  list, gathered, multiplied and scatter-added into a zero array, the eight arrays added in order — each step applied to
  the previous layer, and finally reshape the table and the three layers to packed rows. Each operation's result is
  its function of its operands' results; following the operands back to the arguments gives the four terms below.
-/
import proofs.«153858_j60035052863927_2_alg».proof.Proof.Gen.KernelIdeal.Frame
import proofs.«153858_j60035052863927_2_alg».proof.Proof.HostLayers
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The node table of the launched memory. -/
def tableOf (c : Dev nD) : (⟨S150000x64, .f32⟩ : BufTy).Contents (Elt Ideal) :=
  tableK (F := Ideal) (m ((c : Thread nD τ).loc main_arg0)) (m ((c : Thread nD τ).loc main_arg1))

/-- One run-by-run propagation step with the launched memory's edge list. -/
def stepOf (c : Dev nD) (x : (⟨S150000x64, .f32⟩ : BufTy).Contents (Elt Ideal)) : (⟨S150000x64, .f32⟩ : BufTy).Contents (Elt Ideal) :=
  layerK (F := Ideal) (m ((c : Thread nD τ).loc main_arg2)) (m ((c : Thread nD τ).loc main_arg3)) (m ((c : Thread nD τ).loc main_arg4)) x

set_option maxHeartbeats 0 in
/-- The region's four input arrays: the packed table and the packed first, second and third layers. -/
theorem launched_arrays (c : Dev nD) :
    V (F := Ideal) m c main_v412 = packK (F := Ideal) (tableOf m c)
    ∧ V (F := Ideal) m c main_v413 = packK (F := Ideal) (stepOf m c (tableOf m c))
    ∧ V (F := Ideal) m c main_v414 = packK (F := Ideal) (stepOf m c (stepOf m c (tableOf m c)))
    ∧ V (F := Ideal) m c main_v415 = packK (F := Ideal) (stepOf m c (stepOf m c (stepOf m c (tableOf m c)))) := by
  show StableHlo.after hostOps0 (fun b => m (c, b)) (Proc.devRef .tc main_v412) = _
    ∧ StableHlo.after hostOps0 (fun b => m (c, b)) (Proc.devRef .tc main_v413) = _
    ∧ StableHlo.after hostOps0 (fun b => m (c, b)) (Proc.devRef .tc main_v414) = _
    ∧ StableHlo.after hostOps0 (fun b => m (c, b)) (Proc.devRef .tc main_v415) = _
  after_results_simp
  exact ⟨rfl, rfl, rfl, rfl⟩

end Cert.Bridge

end
-- ==== Proof.PoolSpec.lean ====
/-
  The pooling step on rows that hold TWO nodes each. A packed row of 128 entries holds node 2k in its first 64 entries
  and node 2k+1 in its last 64. For each of three layer arrays the step divides every entry by the Euclidean norm of
  the 64 entries of ITS node (the norm floored at a small positive word), spelt as a product with the reciprocal
  1 / max(sqrt(sum of squares), floor); the sum of squares of one half of a packed row is taken over all 128 entries
  with the other half's squares replaced by zero. The three scaled arrays are added, in order, onto the base array
  and the total is multiplied by one quarter.

  Stated for any number of packed rows, so that one definition reads both a block of rows and the whole array; an
  entry of the result depends only on the same packed row of the four arrays (`poolK_row`).
-/
import Idealize.ShloMosaic.PureOps.Ideal
import Idealize.ShloMosaic.Lib.ValueIdx

noncomputable section

namespace Cert.Bridge

open Idealize.ShloMosaic Idealize.ShloMosaic.ValueIdx

/-- The sum of the squares of the entries of packed row `k` that lie in the first half (`lo = true`) or in the second
    half (`lo = false`): a sum over all 128 entries, the other half's terms zero. -/
def halfSq {R : Nat} (h : (⟨2, ![R, 128]⟩ : Shape).Idx → EReal) (k : Fin R) (lo : Bool) : EReal :=
  ∑ l : Fin 128, if decide (l.val < 64) = lo then h (ix2 k l) * h (ix2 k l) else 0

/-- One over the floored norm: 1 / max(sqrt s, floor), the floor the float nearest 1e-12. -/
def recipNorm (s : EReal) : EReal :=
  Ideal.div (Ideal.ofBits .f32 0x3F800000#32) (max (Ideal.sqrt s) (Ideal.ofBits .f32 0x2B8CBCCC#32))

/-- The factor entry `l` of packed row `k` is multiplied by: the reciprocal floored norm of the half `l` lies in. -/
def scaleK {R : Nat} (h : (⟨2, ![R, 128]⟩ : Shape).Idx → EReal) (k : Fin R) (l : Fin 128) : EReal :=
  if l.val < 64 then recipNorm (halfSq h k true) else recipNorm (halfSq h k false)

/-- The pooled packed array: ((b + h₁·scale h₁) + h₂·scale h₂) + h₃·scale h₃, times the word 0.25. -/
def poolK {R : Nat} (b h1 h2 h3 : (⟨2, ![R, 128]⟩ : Shape).Idx → EReal) : (⟨2, ![R, 128]⟩ : Shape).Idx → EReal :=
  fun i => (((b i + h1 i * scaleK h1 (i 0) (i 1)) + h2 i * scaleK h2 (i 0) (i 1)) + h3 i * scaleK h3 (i 0) (i 1))
    * Ideal.ofBits .f32 0x3E800000#32

theorem halfSq_row {R R' : Nat} (x : (⟨2, ![R, 128]⟩ : Shape).Idx → EReal) (A : (⟨2, ![R', 128]⟩ : Shape).Idx → EReal)
    (p : Fin R) (k : Fin R') (hx : ∀ l : Fin 128, x (ix2 p l) = A (ix2 k l)) (lo : Bool) : halfSq x p lo = halfSq A k lo := by
  unfold halfSq
  exact Finset.sum_congr rfl fun l _ => by rw [hx l]

theorem scaleK_row {R R' : Nat} (x : (⟨2, ![R, 128]⟩ : Shape).Idx → EReal) (A : (⟨2, ![R', 128]⟩ : Shape).Idx → EReal)
    (p : Fin R) (k : Fin R') (hx : ∀ l : Fin 128, x (ix2 p l) = A (ix2 k l)) (l : Fin 128) : scaleK x p l = scaleK A k l := by
  unfold scaleK
  rw [halfSq_row x A p k hx true, halfSq_row x A p k hx false]

/-- An entry of the pooled array depends only on its own packed row of the four arrays: if rows `p` of the `x`s are rows
    `k` of the `A`s, the pooled `x`s at `(p, q)` are the pooled `A`s at `(k, q)`. -/
theorem poolK_row {R R' : Nat} (x0 x1 x2 x3 : (⟨2, ![R, 128]⟩ : Shape).Idx → EReal)
    (A0 A1 A2 A3 : (⟨2, ![R', 128]⟩ : Shape).Idx → EReal) (p : Fin R) (k : Fin R')
    (h0 : ∀ l : Fin 128, x0 (ix2 p l) = A0 (ix2 k l)) (h1 : ∀ l : Fin 128, x1 (ix2 p l) = A1 (ix2 k l))
    (h2 : ∀ l : Fin 128, x2 (ix2 p l) = A2 (ix2 k l)) (h3 : ∀ l : Fin 128, x3 (ix2 p l) = A3 (ix2 k l)) (q : Fin 128) :
    poolK x0 x1 x2 x3 (ix2 p q) = poolK A0 A1 A2 A3 (ix2 k q) := by
  show (((x0 (ix2 p q) + x1 (ix2 p q) * scaleK x1 p q) + x2 (ix2 p q) * scaleK x2 p q) + x3 (ix2 p q) * scaleK x3 p q) * _
    = (((A0 (ix2 k q) + A1 (ix2 k q) * scaleK A1 k q) + A2 (ix2 k q) * scaleK A2 k q) + A3 (ix2 k q) * scaleK A3 k q) * _
  rw [h0 q, h1 q, h2 q, h3 q, scaleK_row x1 A1 p k h1 q, scaleK_row x2 A2 p k h2 q, scaleK_row x3 A3 p k h3 q]

end Cert.Bridge

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.PoolBody.lean ====
/-
  What the kernel body computes on one block of 5000 packed rows, as the packed-row pooling formula of PoolSpec.lean.

  The body's arithmetic is one pure term of its four loaded blocks. Read at entry (p, q): the lane mask (an iota along the
  row compared with 64) is the test q < 64; a sum along a row of a masked square is the half sum of PoolSpec; a
  [5000] vector viewed as a [5000,1] column and then repeated along the row reads the vector at p; the remaining
  operations act entry by entry.
-/
import proofs.«153858_j60035052863927_2_alg».proof.Proof.Gen.KernelIdeal.Skeleton
import proofs.«153858_j60035052863927_2_alg».proof.Proof.PoolSpec
import proofs.«153858_j60035052863927_2_alg».proof.Proof.LibRowReads
import proofs.«153858_j60035052863927_2_alg».proof.Proof.LibColumnReads
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.KernelIdeal Cert.KernelIdeal.Facts₀

/-- The lane mask at entry `(p, q)`: set exactly on the first 64 entries of a row. -/
theorem laneMask_apply (p : Fin 5000) (q : Fin 128) :
    cmpi .slt (iota .tc S5000x128 32 [1] iota_S5000x128_d1_w32) (broadcast S5000x128 64#32) (ix2 p q)
      = if q.val < 64 then 1#1 else 0#1 := by
  show IntOp.cmpi .slt (BitVec.ofNat 32 (0 * 128 + q.val)) 64#32 = _
  revert q; decide

/-- A masked value at `(p, q)`: the first operand on the first 64 entries, the second on the rest. -/
theorem laneSelect_apply (a b : S5000x128.Idx → EReal) (p : Fin 5000) (q : Fin 128) :
    select (cmpi .slt (iota .tc S5000x128 32 [1] iota_S5000x128_d1_w32) (broadcast S5000x128 64#32)) a b (ix2 p q)
      = if q.val < 64 then a (ix2 p q) else b (ix2 p q) := by
  rw [select_apply, laneMask_apply]
  split
  · exact select_one _ _
  · exact select_zero _ _

/-- A sum along the entries of row `p` of a block, from the zero word. -/
theorem blockRowSum_apply (v : FVec Ideal S5000x128 .f32) (h : S5000x128.Reduces [1] S5000) (hφ : FKind.Formats FTy.f32)
    (hacc : (0x00000000#32 : BitVec 32) = 0x00000000#32) (p : Fin 5000) :
    multiReduction (F := Ideal) .add [1] S5000 v 0x00000000#32 h hφ hacc (ix1 p) = ∑ k : Fin 128, v (ix2 p k) := by
  refine (Ideal.multiReduction_add_single v 0x00000000#32 h hφ hacc (ix1 p)).trans ?_
  exact Finset.sum_congr rfl fun k _ => congrArg v (Cert.LibRowReads.lift_row h p k)

/-- The first half's squares summed along row `p` (the other half replaced by the zero word). -/
theorem sumLo_apply (x : FVec Ideal S5000x128 .f32) (h : S5000x128.Reduces [1] S5000) (hφ : FKind.Formats FTy.f32)
    (hacc : (0x00000000#32 : BitVec 32) = 0x00000000#32) (p : Fin 5000) :
    multiReduction (F := Ideal) .add [1] S5000
        (select (cmpi .slt (iota .tc S5000x128 32 [1] iota_S5000x128_d1_w32) (broadcast S5000x128 64#32))
          (mulf (F := Ideal) (φ := .f32) x x) (broadcast S5000x128 (Scalar.ofBits (F := Ideal) .f32 0x00000000#32)))
        0x00000000#32 h hφ hacc (ix1 p)
      = halfSq x p true := by
  refine (blockRowSum_apply _ h hφ hacc p).trans ?_
  unfold halfSq
  refine Finset.sum_congr rfl fun l _ => ?_
  refine (laneSelect_apply _ _ p l).trans ?_
  by_cases hl : l.val < 64
  · rw [if_pos hl, if_pos (by simpa using hl)]; rfl
  · rw [if_neg hl, if_neg (by simpa using hl)]; exact Ideal.ofBits_zero_f32

/-- The second half's squares summed along row `p`. -/
theorem sumHi_apply (x : FVec Ideal S5000x128 .f32) (h : S5000x128.Reduces [1] S5000) (hφ : FKind.Formats FTy.f32)
    (hacc : (0x00000000#32 : BitVec 32) = 0x00000000#32) (p : Fin 5000) :
    multiReduction (F := Ideal) .add [1] S5000
        (select (cmpi .slt (iota .tc S5000x128 32 [1] iota_S5000x128_d1_w32) (broadcast S5000x128 64#32))
          (broadcast S5000x128 (Scalar.ofBits (F := Ideal) .f32 0x00000000#32)) (mulf (F := Ideal) (φ := .f32) x x))
        0x00000000#32 h hφ hacc (ix1 p)
      = halfSq x p false := by
  refine (blockRowSum_apply _ h hφ hacc p).trans ?_
  unfold halfSq
  refine Finset.sum_congr rfl fun l _ => ?_
  refine (laneSelect_apply _ _ p l).trans ?_
  by_cases hl : l.val < 64
  · rw [if_pos hl, if_neg (by simpa using hl)]; exact Ideal.ofBits_zero_f32
  · rw [if_neg hl, if_pos (by simpa using hl)]; rfl

/-! ## The body's term, entry by entry -/

/-- The lane mask. -/
def laneMask : IVec S5000x128 1 :=
  cmpi .slt (iota .tc S5000x128 32 [1] iota_S5000x128_d1_w32) (broadcast S5000x128 64#32)

/-- A [5000] vector of sums of squares turned into the [5000,128] array of reciprocal floored norms, each repeated along
    its row, as the body spells it: column view, square root, maximum with the floor word, one over it, repeat. -/
def recipRows (s : FVec Ideal S5000 .f32) : FVec Ideal S5000x128 .f32 :=
  broadcastTo S5000x128
    (shapeCast S5000x1
      (divf (broadcast S5000x1 (Scalar.ofBits (F := Ideal) .f32 0x3F800000#32))
        (maximumf (sqrt (shapeCast S5000x1 s shapeCasts_S5000_S5000x1))
          (broadcast S5000x1 (Scalar.ofBits (F := Ideal) .f32 0x2B8CBCCC#32))))
      shapeCasts_S5000x1_S5000x1)
    broadcasts_S5000x1_S5000x128

theorem recipRows_apply (s : FVec Ideal S5000 .f32) (p : Fin 5000) (q : Fin 128) :
    recipRows s (ix2 p q) = recipNorm (s (ix1 p)) := by
  unfold recipRows
  rw [Cert.LibColumnReads.broadcastTo_a1_ab_apply, shapeCast_self]
  show Ideal.div _ (max (Ideal.sqrt (shapeCast S5000x1 s shapeCasts_S5000_S5000x1 (ix2 p (0 : Fin 1)))) _) = _
  rw [Cert.LibColumnReads.shapeCast_a_a1_apply]
  rfl

/-- The factor array of one layer block `x`, as the body spells it. -/
def scaleBody (x : FVec Ideal S5000x128 .f32) : FVec Ideal S5000x128 .f32 :=
  select laneMask
    (recipRows (multiReduction (F := Ideal) .add [1] S5000
      (select laneMask (mulf x x) (broadcast S5000x128 (Scalar.ofBits (F := Ideal) .f32 0x00000000#32)))
      0x00000000#32 reduces_S5000x128_S5000 (.inl rfl) rfl))
    (recipRows (multiReduction (F := Ideal) .add [1] S5000
      (select laneMask (broadcast S5000x128 (Scalar.ofBits (F := Ideal) .f32 0x00000000#32)) (mulf x x))
      0x00000000#32 reduces_S5000x128_S5000 (.inl rfl) rfl))

theorem scaleBody_apply (x : FVec Ideal S5000x128 .f32) (p : Fin 5000) (q : Fin 128) :
    scaleBody x (ix2 p q) = scaleK x p q := by
  unfold scaleBody laneMask
  rw [laneSelect_apply, recipRows_apply, recipRows_apply, sumLo_apply, sumHi_apply]
  rfl

/-- The body's stored value from its four loaded blocks, with the bookkeeping names removed. -/
def bodyK (x0 x1 x2 x3 : FVec Ideal S5000x128 .f32) : FVec Ideal S5000x128 .f32 :=
  mulf
    (addf (addf (addf (shapeCast S5000x128 x0 shapeCasts_S5000x128_S5000x128)
        (mulf (shapeCast S5000x128 x1 shapeCasts_S5000x128_S5000x128) (scaleBody (shapeCast S5000x128 x1 shapeCasts_S5000x128_S5000x128))))
        (mulf (shapeCast S5000x128 x2 shapeCasts_S5000x128_S5000x128) (scaleBody (shapeCast S5000x128 x2 shapeCasts_S5000x128_S5000x128))))
      (mulf (shapeCast S5000x128 x3 shapeCasts_S5000x128_S5000x128) (scaleBody (shapeCast S5000x128 x3 shapeCasts_S5000x128_S5000x128))))
    (broadcast S5000x128 (Scalar.ofBits (F := Ideal) .f32 0x3E800000#32))

/-- The skeleton's payload term IS that value: the same operations, by unfolding. -/
theorem payload_eq_bodyK (x0 x1 x2 x3 : FVec Ideal S5000x128 .f32) :
    Gen.k0_pay1 (Gen.k0_pay8 (Gen.k0_pay2 x0 x1) (Gen.k0_pay3 x2) (Gen.k0_pay4 x2) Gen.k0_pay5 (Gen.k0_pay6 (F := Ideal)) (Gen.k0_pay7 x2))
        (Gen.k0_pay9 x3) Gen.k0_pay11 (Gen.k0_pay13 x3) (Gen.k0_pay14 x3)
      = bodyK x0 x1 x2 x3 := rfl

/-- The body's stored value is the packed-row pooling of its four blocks. -/
theorem bodyK_eq_poolK (x0 x1 x2 x3 : FVec Ideal S5000x128 .f32) : bodyK x0 x1 x2 x3 = poolK x0 x1 x2 x3 := by
  funext j
  obtain ⟨p, q, rfl⟩ : ∃ (p : Fin 5000) (q : Fin 128), j = ix2 p q := ⟨j 0, j 1, eq_ix2 j⟩
  unfold bodyK
  simp only [shapeCast_self]
  show (((x0 (ix2 p q) + x1 (ix2 p q) * scaleBody x1 (ix2 p q)) + x2 (ix2 p q) * scaleBody x2 (ix2 p q))
      + x3 (ix2 p q) * scaleBody x3 (ix2 p q)) * Ideal.ofBits .f32 0x3E800000#32 = _
  rw [scaleBody_apply, scaleBody_apply, scaleBody_apply]
  rfl

end Cert.Bridge

end
-- ==== Proof.PoolRun.lean ====
/-
  The packed array the pooling region leaves, as ONE function of the four packed arrays it is launched on.

  The region runs over 15 blocks of 5000 packed rows; the four inputs and the output move together, block t holding
  packed rows 5000·t … 5000·t + 4999 and all 128 entries of each. The body stores the packed-row pooling of its four
  blocks (PoolBody.lean), and an entry of the pooling depends only on its own packed row, so what block t writes back
  is block t of the pooling of the four WHOLE arrays; the 15 blocks cover the array, so the array ends at that
  pooling.
-/
import proofs.«153858_j60035052863927_2_alg».proof.Proof.Gen.KernelIdeal.Frame
import proofs.«153858_j60035052863927_2_alg».proof.Proof.PoolBody
import Idealize.ShloMosaic.Lib.Pipeline.Value
import Idealize.ShloMosaic.PureOps.Ideal

set_option maxRecDepth 16384

noncomputable section

namespace Cert.Bridge

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem zeroOffsets : (![0, 0] : Fin 2 → Nat) = fun _ => 0 := funext fun a => by fin_cases a <;> rfl

/-- The printed index maps over the grid: every window's block at a point is the output's block, in the one block
    column there is, and there are 15 block rows. -/
theorem blockIdx : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 14 :=
  (by decide +kernel : ∀ t : Fin grid0.N, _)

/-- Every block row is some point's. -/
theorem blockOnto : ∀ q0 : Fin 15, ∃ t : Fin cfg0.N, win0_4.index t = ![q0.val, 0] :=
  (by decide +kernel : ∀ q0 : Fin 15, ∃ t : Fin grid0.N, win0_4.index t = ![q0.val, 0])

/-- The pooling of four blocks that are block `b` of four arrays is block `b` of the arrays' pooling. -/
theorem pool_block_entry (A0 A1 A2 A3 : S75000x128.Idx → EReal) (x0 x1 x2 x3 : S5000x128.Idx → EReal) (b : Nat) (hb : b ≤ 14)
    (h0 : ∀ (p : Fin 5000) (l : Fin 128), x0 (ix2 p l) = A0 (ix2 (⟨b * 5000 + p.val, by omega⟩ : Fin 75000) l))
    (h1 : ∀ (p : Fin 5000) (l : Fin 128), x1 (ix2 p l) = A1 (ix2 (⟨b * 5000 + p.val, by omega⟩ : Fin 75000) l))
    (h2 : ∀ (p : Fin 5000) (l : Fin 128), x2 (ix2 p l) = A2 (ix2 (⟨b * 5000 + p.val, by omega⟩ : Fin 75000) l))
    (h3 : ∀ (p : Fin 5000) (l : Fin 128), x3 (ix2 p l) = A3 (ix2 (⟨b * 5000 + p.val, by omega⟩ : Fin 75000) l))
    (p : Fin 5000) (q : Fin 128) :
    poolK x0 x1 x2 x3 (ix2 p q) = poolK A0 A1 A2 A3 (ix2 (⟨b * 5000 + p.val, by omega⟩ : Fin 75000) q) :=
  poolK_row x0 x1 x2 x3 A0 A1 A2 A3 p _ (h0 p) (h1 p) (h2 p) (h3 p) q

/-- The body's result on block `t` of ANY four packed arrays, read through the output's block, is block `t` of the
    arrays' pooling. -/
theorem pooled_block (c : Dev nD) (A0 : Buf (Elt Ideal) ((c : Thread nD τ).loc main_v412))
    (A1 : Buf (Elt Ideal) ((c : Thread nD τ).loc main_v413)) (A2 : Buf (Elt Ideal) ((c : Thread nD τ).loc main_v414))
    (A3 : Buf (Elt Ideal) ((c : Thread nD τ).loc main_v415)) (t : Fin cfg0.N) :
    (cfg0.win 4).cut (grid0.coords t)
        (out0_4 (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (poolK (R := 75000) A0 A1 A2 A3) := by
  unfold out0_4
  rw [View.canon_unit_zero zeroOffsets]
  simp only [View.ld_unit_zero (S := S5000x128) zeroOffsets]
  obtain ⟨e00, e01, e10, e11, e20, e21, e30, e31, e41, e4⟩ := blockIdx t
  funext j
  obtain ⟨p, q, rfl⟩ : ∃ (p : Fin 5000) (q : Fin 128), j = ix2 p q := ⟨j 0, j 1, eq_ix2 j⟩
  show k0_pay1 (k0_pay8 (k0_pay2 (((cfg0.win 0).blk t).view.read (Elt Ideal) A0) (((cfg0.win 1).blk t).view.read (Elt Ideal) A1))
        (k0_pay3 (((cfg0.win 2).blk t).view.read (Elt Ideal) A2)) (k0_pay4 (((cfg0.win 2).blk t).view.read (Elt Ideal) A2)) k0_pay5
        (k0_pay6 (F := Ideal)) (k0_pay7 (((cfg0.win 2).blk t).view.read (Elt Ideal) A2)))
        (k0_pay9 (((cfg0.win 3).blk t).view.read (Elt Ideal) A3)) k0_pay11 (k0_pay13 (((cfg0.win 3).blk t).view.read (Elt Ideal) A3))
        (k0_pay14 (((cfg0.win 3).blk t).view.read (Elt Ideal) A3)) (ix2 p q)
    = poolK (R := 75000) A0 A1 A2 A3 (((cfg0.win 4).blk t).view.emb (ix2 p q))
  refine (congrFun (payload_eq_bodyK _ _ _ _) (ix2 p q)).trans ?_
  refine (congrFun (bodyK_eq_poolK _ _ _ _) (ix2 p q)).trans ?_
  refine (pool_block_entry A0 A1 A2 A3 _ _ _ _ (win0_4.index t (0 : Fin 2)) e4 ?_ ?_ ?_ ?_ p q).trans ?_
  · intro p l
    show A0 (((cfg0.win 0).blk t).view.emb (ix2 p l)) = _
    refine congrArg A0 ?_
    funext a; apply Fin.ext
    match a with
    | ⟨0, _⟩ => show win0_0.index t (0 : Fin 2) * 5000 + 1 * p.val = win0_4.index t (0 : Fin 2) * 5000 + p.val; omega
    | ⟨1, _⟩ => show win0_0.index t (1 : Fin 2) * 128 + 1 * l.val = l.val; omega
  · intro p l
    show A1 (((cfg0.win 1).blk t).view.emb (ix2 p l)) = _
    refine congrArg A1 ?_
    funext a; apply Fin.ext
    match a with
    | ⟨0, _⟩ => show win0_1.index t (0 : Fin 2) * 5000 + 1 * p.val = win0_4.index t (0 : Fin 2) * 5000 + p.val; omega
    | ⟨1, _⟩ => show win0_1.index t (1 : Fin 2) * 128 + 1 * l.val = l.val; omega
  · intro p l
    show A2 (((cfg0.win 2).blk t).view.emb (ix2 p l)) = _
    refine congrArg A2 ?_
    funext a; apply Fin.ext
    match a with
    | ⟨0, _⟩ => show win0_2.index t (0 : Fin 2) * 5000 + 1 * p.val = win0_4.index t (0 : Fin 2) * 5000 + p.val; omega
    | ⟨1, _⟩ => show win0_2.index t (1 : Fin 2) * 128 + 1 * l.val = l.val; omega
  · intro p l
    show A3 (((cfg0.win 3).blk t).view.emb (ix2 p l)) = _
    refine congrArg A3 ?_
    funext a; apply Fin.ext
    match a with
    | ⟨0, _⟩ => show win0_3.index t (0 : Fin 2) * 5000 + 1 * p.val = win0_4.index t (0 : Fin 2) * 5000 + p.val; omega
    | ⟨1, _⟩ => show win0_3.index t (1 : Fin 2) * 128 + 1 * l.val = l.val; omega
  · refine congrArg (poolK (R := 75000) A0 A1 A2 A3) ?_
    funext a; apply Fin.ext
    match a with
    | ⟨0, _⟩ => show win0_4.index t (0 : Fin 2) * 5000 + p.val = win0_4.index t (0 : Fin 2) * 5000 + 1 * p.val; omega
    | ⟨1, _⟩ => show q.val = win0_4.index t (1 : Fin 2) * 128 + 1 * q.val; omega

/-- WHAT POINT `t` WRITES BACK is block `t` of the pooling of the four arrays as the region finds them. -/
theorem flushed_eq (c : Dev nD) (t : Fin cfg0.N) :
    (dats m 0 c).flushed 4 t = ((cfg0.win 4).blk t).view.read (Elt Ideal)
      (poolK (R := 75000) (V m c main_v412) (V m c main_v413) (V m c main_v414) (V m c main_v415)) :=
  (congrArg ((cfg0.win 4).cut (grid0.coords t)) (after0_4 m c t)).trans
    (pooled_block c (V m c main_v412) (V m c main_v413) (V m c main_v414) (V m c main_v415) t)

/-- An index of the packed array is in point `t`'s block iff each coordinate is in the block's range on its axis. -/
theorem mem_blk (t : Fin cfg0.N) (i : S75000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v416).slice (win0_4.rect t)).set ↔ _
  rw [View.set_slice_whole, Rect.mem_set_unit]
  exact Iff.rfl

/-- The 15 blocks cover the packed array: packed row r is in block r / 5000. -/
theorem covered (i : S75000x128.Idx) :
    ∃ t : Fin cfg0.N, (cfg0.win 4).flush t = true ∧ i ∈ ((cfg0.win 4).blk t).view.set := by
  have hi0 : (i 0).val < 75000 := (i 0).isLt
  have hi1 : (i 1).val < 128 := (i 1).isLt
  obtain ⟨t, ht⟩ := blockOnto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE PACKED ARRAY after the region: the pooling of the four packed arrays as the region finds them. -/
theorem final (c : Dev nD) :
    (dats m 0 c).arrAt 4 cfg0.N
      = poolK (R := 75000) (V m c main_v412) (V m c main_v413) (V m c main_v414) (V m c main_v415) :=
  (dats m 0 c).arrAt_eq_of_cover 4 _ (fun t _ => flushed_eq m c t) covered

end Cert.Bridge

end
-- ==== Proof.KernelOut.lean ====
/-
  The idealized kernel program's two results, as functions of its argument arrays.

  After the pooling region the program reshapes the packed array back to node rows and cuts it into the first 100000
  and the last 50000 rows. The packed array is the packed-row pooling of the four arrays the region is launched on
  (PoolRun.lean), and those are the packed forms of the node table and of three layers, each layer one run-by-run
  propagation step of the previous one (read off the host operations before the region).
-/
import proofs.«153858_j60035052863927_2_alg».proof.Proof.PoolRun
import proofs.«153858_j60035052863927_2_alg».proof.Proof.HostLayers
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen

/-- The first 100000 node rows. -/
def usersK (y : (⟨S150000x64, .f32⟩ : BufTy).Contents (Elt Ideal)) : (⟨S100000x64, .f32⟩ : BufTy).Contents (Elt Ideal) :=
  extractStridedSlice S100000x64 ![0, 0] y slices_S150000x64_S100000x64_0_0

/-- The last 50000 node rows. -/
def itemsK (y : (⟨S150000x64, .f32⟩ : BufTy).Contents (Elt Ideal)) : (⟨S50000x64, .f32⟩ : BufTy).Contents (Elt Ideal) :=
  extractStridedSlice S50000x64 ![100000, 0] y slices_S150000x64_S50000x64_100000_0

/-- The host operations after the region, from ANY contents: the first result is the first 100000 rows of the packed
    array reshaped back. -/
theorem tail_users (W : Valuation τ sig (Elt Ideal)) :
    StableHlo.after (hostOps1 (F := Ideal)) W (Proc.devRef .tc main_v418) = usersK (unpackK (F := Ideal) (W (Proc.devRef .tc main_v416))) := by
  after_results
  rfl

/-- And the second result its last 50000 rows. -/
theorem tail_items (W : Valuation τ sig (Elt Ideal)) :
    StableHlo.after (hostOps1 (F := Ideal)) W (Proc.devRef .tc main_v419) = itemsK (unpackK (F := Ideal) (W (Proc.devRef .tc main_v416))) := by
  after_results
  rfl

end Cert.Bridge

end
-- ==== Proof.KernelValue.lean ====
/-
  The idealized kernel program's two results as functions of the launched memory: the first 100000 and the last 50000
  node rows of the unpacked pooling of the packed table and the three packed layers.
-/
import proofs.«153858_j60035052863927_2_alg».proof.Proof.HostRead
import proofs.«153858_j60035052863927_2_alg».proof.Proof.KernelOut

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The pooled node array of the launched memory, in the kernel program's spelling. -/
def pooledOf (c : Dev nD) : (⟨S150000x64, .f32⟩ : BufTy).Contents (Elt Ideal) :=
  unpackK (F := Ideal) (poolK (R := 75000) (packK (F := Ideal) (tableOf m c)) (packK (F := Ideal) (stepOf m c (tableOf m c)))
    (packK (F := Ideal) (stepOf m c (stepOf m c (tableOf m c))))
    (packK (F := Ideal) (stepOf m c (stepOf m c (stepOf m c (tableOf m c))))))

/-- The packed array the region leaves, from the launched memory. -/
theorem region_array (c : Dev nD) :
    (dats m 0 c).arrAt 4 cfg0.N
      = poolK (R := 75000) (packK (F := Ideal) (tableOf m c)) (packK (F := Ideal) (stepOf m c (tableOf m c)))
          (packK (F := Ideal) (stepOf m c (stepOf m c (tableOf m c))))
          (packK (F := Ideal) (stepOf m c (stepOf m c (stepOf m c (tableOf m c))))) := by
  have h := launched_arrays m c
  rw [final m c, h.1, h.2.1, h.2.2.1, h.2.2.2]

/-- The first result after the whole program. -/
theorem kernel_users (c : Dev nD) :
    Pipeline.afterTail₀ cfgs (dats m) 0 (V0 m) [hostOps1] c main_v418 = usersK (pooledOf m c) := by
  unfold Pipeline.afterTail₀
  refine (tail_users _).trans ?_
  exact congrArg (fun y => usersK (unpackK (F := Ideal) y))
    ((Pipeline.withArrays_arr spec0 launch0.win.arr_inj c _ _ 4).trans (region_array m c))

/-- The second result after the whole program. -/
theorem kernel_items (c : Dev nD) :
    Pipeline.afterTail₀ cfgs (dats m) 0 (V0 m) [hostOps1] c main_v419 = itemsK (pooledOf m c) := by
  unfold Pipeline.afterTail₀
  refine (tail_items _).trans ?_
  exact congrArg (fun y => itemsK (unpackK (F := Ideal) y))
    ((Pipeline.withArrays_arr spec0 launch0.win.arr_inj c _ _ 4).trans (region_array m c))

end Cert.Bridge

end
-- ==== Proof.LibHostIndex.lean ====
/-
  THE HOST'S GATHER AND SCATTER-ADD READ AT AN INDEX, for the dimension numbers that row indexing of a matrix and
  cell indexing of a matrix lower to. General lemmas over the extents `N`, `M`, `R`, `C`: nothing here mentions a program.

  * Row scatter-add (a segment sum, `x.at[idx].add(upd)` on rows): operand `[N, C]`, scatter indices `[R, 1]`, updates
    `[R, C]`. Row `e` of the updates lands on row `idx[e, 0]` of the operand, the index read as a signed integer and NOT
    clamped, the column kept; a row whose index is outside `[0, N)` is dropped. So element `(i, c)` of the result is
    `x (i, c)` plus the sum of `upd (e, c)` over the rows `e` whose index is `i` (`scatterAdd_rows_apply`).
  * Cell scatter-add (`x.at[rows, cols].add(v)` on a matrix): operand `[N, M]`, scatter indices `[R, 2]`, updates `[R]`.
    Update `e` lands on cell `(idx[e, 0], idx[e, 1])`, both read signed and not clamped; so element `(i, j)` of the result is
    `x (i, j)` plus the sum of `upd e` over the `e` whose index pair is `(i, j)` (`scatterAdd_cells_apply`).
  * Vector scatter-add (`x.at[idx].add(v)` on a vector): operand `[N]`, scatter indices `[R, 1]`, updates `[R]`: element `i`
    of the result is `x i` plus the sum of `upd e` over the `e` whose signed index is `i` (`scatterAdd_vec_apply`).
  * Row gather (`x[idx]` on a matrix): operand `[N, C]`, start indices `[R, 1]`, result `[R, C]`. Row `e` of the result is
    the operand's row `idx[e, 0]`, the index read signed and CLAMPED into `[0, N − 1]` (`gather_rows_apply`); and the
    same for a vector operand `[N]` (`gather_vec_apply`).

  Each scatter lemma has the same two steps. First the landing place of one update index is computed coordinate by
  coordinate from the dimension numbers (the start is the signed index on the axis the map names, the window coordinate
  is the update's own coordinate on a window axis and zero on an inserted one), which says exactly when an update lands
  on a given element (`…_resultIdx_iff`). Then the sum over the update indices that land there is re-indexed by the
  update's row alone, the other coordinate being forced.
-/
import Idealize.ShloMosaic.PureOps.Ideal
import Idealize.ShloMosaic.Lib.ValueIdx

noncomputable section

open scoped BigOperators

namespace Cert.Lib.HostIndex

open Idealize.ShloMosaic Idealize.ShloMosaic.ValueIdx

/-! ## Row scatter-add: operand `[N, C]`, scatter indices `[R, 1]`, updates `[R, C]` -/

/-- The dimension numbers of a scatter of whole rows: the updates' axis 1 is the window axis (it goes to the operand's
    axis 1), the operand's axis 0 is inserted and is the one the scatter index names. Their conditions `wf` are decided
    on a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable {N R C w : Nat} (wf : ScatterDims.WF ⟨2, ![N, C]⟩ ⟨2, ![R, 1]⟩ ⟨2, ![R, C]⟩ [1] [0] [0] 1)

/-- On the row axis the window of update `(e, c')` starts at the signed index `idx[e, 0]` … -/
theorem rowScatter_start0 (idx : IVec ⟨2, ![R, 1]⟩ w) (e : Fin R) (c' : Fin C) :
    (rowScatterDims N R C wf).start (ix2 e c') idx 0 = (idx (ix2 e 0)).toInt := by
  unfold ScatterDims.start
  rw [dif_pos (show (0 : Fin 2) ∈ (rowScatterDims N R C wf).scatterDimsToOperandDims from List.mem_singleton.mpr rfl)]
  have hsi : (rowScatterDims N R C wf).siIdx (ix2 e c') ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis, which the map does not name, at `0`. -/
theorem rowScatter_start1 (idx : IVec ⟨2, ![R, 1]⟩ w) (e : Fin R) (c' : Fin C) :
    (rowScatterDims N R C wf).start (ix2 e c') idx 1 = 0 := by
  unfold ScatterDims.start
  rw [dif_neg (show (1 : Fin 2) ∉ ([0] : List (Fin 2)) by decide)]

/-- The row axis is inserted: the window coordinate there is `0` … -/
theorem rowScatter_window0 (e : Fin R) (c' : Fin C) :
    (rowScatterDims N R C wf).window (ix2 e c') 0 = 0 := by
  have h : (0 : Fin 2) ∉ (rowScatterDims N R C wf).sKept := by
    show (0 : Fin 2) ∉ (List.finRange 2).filter (· ∉ ([0] : List (Fin 2)))
    decide
  unfold ScatterDims.window
  rw [dif_neg h]

/-- … and on the column axis it is the update's own column. -/
theorem rowScatter_window1 (e : Fin R) (c' : Fin C) :
    (rowScatterDims N R C wf).window (ix2 e c') 1 = c'.val := by
  unfold ScatterDims.window
  have h : (1 : Fin 2) ∈ (rowScatterDims N R C wf).sKept := by
    show (1 : Fin 2) ∈ (List.finRange 2).filter (· ∉ ([0] : List (Fin 2)))
    decide
  rw [dif_pos h]
  rfl

/-- WHERE AN UPDATE LANDS: update `(e, c')` lands on element `(i, c)` exactly when its signed index is `i` and its
    column is `c`. (When the index is outside `[0, N)` the update lands nowhere, and the right side fails for every `i`.) -/
theorem rowScatter_resultIdx_iff (idx : IVec ⟨2, ![R, 1]⟩ w) (e : Fin R) (c' : Fin C) (i : Fin N) (c : Fin C) :
    (rowScatterDims N R C wf).resultIdx? (ix2 e c') idx = some (ix2 i c)
      ↔ (idx (ix2 e 0)).toInt = (i.val : Int) ∧ c' = c := by
  have hs0 := rowScatter_start0 wf idx e c'
  have hs1 := rowScatter_start1 wf idx e c'
  have hw0 := rowScatter_window0 wf e c'
  have hw1 := rowScatter_window1 wf e c'
  have hi : i.val < N := i.isLt
  have hc' : c'.val < C := c'.isLt
  unfold ScatterDims.resultIdx?
  split
  · rename_i h
    rw [Option.some.injEq]
    constructor
    · intro hf
      have h0 : ((rowScatterDims N R C wf).start (ix2 e c') idx 0 + ((rowScatterDims N R C wf).window (ix2 e c') 0 : Int)).toNat = i.val :=
        congrArg (fun f : (⟨2, ![N, C]⟩ : Shape).Idx => (f 0).val) hf
      have h1 : ((rowScatterDims N R C wf).start (ix2 e c') idx 1 + ((rowScatterDims N R C wf).window (ix2 e c') 1 : Int)).toNat = c.val :=
        congrArg (fun f : (⟨2, ![N, C]⟩ : Shape).Idx => (f 1).val) hf
      have g0 := (h 0).1
      rw [hs0, hw0] at h0 g0
      rw [hs1, hw1] at h1
      refine ⟨by omega, Fin.ext (by omega)⟩
    · rintro ⟨ht, rfl⟩
      funext a; refine Fin.ext ?_
      match a with
      | ⟨0, _⟩ =>
        show ((rowScatterDims N R C wf).start (ix2 e c') idx 0 + ((rowScatterDims N R C wf).window (ix2 e c') 0 : Int)).toNat = i.val
        rw [hs0, hw0]; omega
      | ⟨1, _⟩ =>
        show ((rowScatterDims N R C wf).start (ix2 e c') idx 1 + ((rowScatterDims N R C wf).window (ix2 e c') 1 : Int)).toNat = c'.val
        rw [hs1, hw1]; omega
  · rename_i h
    refine iff_of_false (by simp) ?_
    rintro ⟨ht, rfl⟩
    apply h
    intro a
    match a with
    | ⟨0, _⟩ =>
      show 0 ≤ (rowScatterDims N R C wf).start (ix2 e c') idx 0 + ((rowScatterDims N R C wf).window (ix2 e c') 0 : Int)
        ∧ (rowScatterDims N R C wf).start (ix2 e c') idx 0 + ((rowScatterDims N R C wf).window (ix2 e c') 0 : Int) < (N : Int)
      rw [hs0, hw0]; omega
    | ⟨1, _⟩ =>
      show 0 ≤ (rowScatterDims N R C wf).start (ix2 e c') idx 1 + ((rowScatterDims N R C wf).window (ix2 e c') 1 : Int)
        ∧ (rowScatterDims N R C wf).start (ix2 e c') idx 1 + ((rowScatterDims N R C wf).window (ix2 e c') 1 : Int) < (C : Int)
      rw [hs1, hw1]; omega

/-- THE ROW SCATTER-ADD READ AT `(i, c)`: the operand's element plus the sum of column `c` of the update rows whose index,
    read signed, is `i`. The sum over the update indices `(e, c')` that land on `(i, c)` is split by coordinates; for each
    row `e` the inner sum over `c'` has the one term `c' = c`, present exactly when the row's index is `i`. -/
theorem scatterAdd_rows_apply (x : (⟨2, ![N, C]⟩ : Shape).Idx → EReal) (idx : IVec ⟨2, ![R, 1]⟩ w)
    (upd : (⟨2, ![R, C]⟩ : Shape).Idx → EReal) (i : Fin N) (c : Fin C) :
    Ideal.hostScatterAdd (rowScatterDims N R C wf) x idx upd (ix2 i c)
      = x (ix2 i c) + ∑ e ∈ Finset.univ.filter (fun e : Fin R => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases hq : (idx (ix2 e 0)).toInt = (i.val : Int)
  · simp only [hq, true_and, if_true]
    rw [Finset.sum_ite_eq']
    simp
  · simp [hq]

end RowScatter

/-! ## Cell scatter-add: operand `[N, M]`, scatter indices `[R, 2]`, updates `[R]` -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The dimension numbers of a scatter of single cells: the updates have no window axis, both operand axes are
    inserted, and the scatter index's two components name the operand's axes 0 and 1 in order. Their conditions `wf`
    are decided on a program's literal shapes. -/
abbrev cellScatterDims (N M R : Nat)
    (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

section CellScatter
variable {N M R w : Nat} (wf : ScatterDims.WF ⟨2, ![N, M]⟩ ⟨2, ![R, 2]⟩ ⟨1, ![R]⟩ [] [0, 1] [0, 1] 1)

/-- On the row axis update `e` starts at the signed index `idx[e, 0]` … -/
theorem cellScatter_start0 (idx : IVec ⟨2, ![R, 2]⟩ w) (e : Fin R) :
    (cellScatterDims N M R wf).start (ix1 e) idx 0 = (idx (ix2 e 0)).toInt := by
  have hm : (0 : Fin 2) ∈ (cellScatterDims N M R wf).scatterDimsToOperandDims := by
    show (0 : Fin 2) ∈ ([0, 1] : List (Fin 2))
    decide
  unfold ScatterDims.start
  rw [dif_pos hm]
  have hsi : (cellScatterDims N M R wf).siIdx (ix1 e) ⟨List.idxOf (0 : Fin 2) (cellScatterDims N M R wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the column axis at the signed index `idx[e, 1]`. -/
theorem cellScatter_start1 (idx : IVec ⟨2, ![R, 2]⟩ w) (e : Fin R) :
    (cellScatterDims N M R wf).start (ix1 e) idx 1 = (idx (ix2 e 1)).toInt := by
  have hm : (1 : Fin 2) ∈ (cellScatterDims N M R wf).scatterDimsToOperandDims := by
    show (1 : Fin 2) ∈ ([0, 1] : List (Fin 2))
    decide
  unfold ScatterDims.start
  rw [dif_pos hm]
  have hsi : (cellScatterDims N M R wf).siIdx (ix1 e) ⟨List.idxOf (1 : Fin 2) (cellScatterDims N M R wf).scatterDimsToOperandDims,
      List.idxOf_lt_length_iff.2 hm⟩ = ix2 e 1 := by
    funext b; refine Fin.ext ?_
    match b with
    | ⟨0, _⟩ => rfl
    | ⟨1, _⟩ => rfl
  rw [hsi]

/-- Both operand axes are inserted: the window coordinate is `0` on each. -/
theorem cellScatter_window (e : Fin R) (a : Fin 2) :
    (cellScatterDims N M R wf).window (ix1 e) a = 0 := by
  have h : a ∉ (cellScatterDims N M R wf).sKept := by
    show a ∉ (List.finRange 2).filter (· ∉ ([0, 1] : List (Fin 2)))
    revert a; decide
  unfold ScatterDims.window
  rw [dif_neg h]

/-- WHERE AN UPDATE LANDS: update `e` lands on cell `(i, j)` exactly when its signed index pair is `(i, j)`. -/
theorem cellScatter_resultIdx_iff (idx : IVec ⟨2, ![R, 2]⟩ w) (e : Fin R) (i : Fin N) (j : Fin M) :
    (cellScatterDims N M R wf).resultIdx? (ix1 e) idx = some (ix2 i j)
      ↔ (idx (ix2 e 0)).toInt = (i.val : Int) ∧ (idx (ix2 e 1)).toInt = (j.val : Int) := by
  have hs0 := cellScatter_start0 wf idx e
  have hs1 := cellScatter_start1 wf idx e
  have hw0 := cellScatter_window wf e 0
  have hw1 := cellScatter_window wf e 1
  have hi : i.val < N := i.isLt
  have hj : j.val < M := j.isLt
  unfold ScatterDims.resultIdx?
  split
  · rename_i h
    rw [Option.some.injEq]
    constructor
    · intro hf
      have h0 : ((cellScatterDims N M R wf).start (ix1 e) idx 0 + ((cellScatterDims N M R wf).window (ix1 e) 0 : Int)).toNat = i.val :=
        congrArg (fun f : (⟨2, ![N, M]⟩ : Shape).Idx => (f 0).val) hf
      have h1 : ((cellScatterDims N M R wf).start (ix1 e) idx 1 + ((cellScatterDims N M R wf).window (ix1 e) 1 : Int)).toNat = j.val :=
        congrArg (fun f : (⟨2, ![N, M]⟩ : Shape).Idx => (f 1).val) hf
      have g0 := (h 0).1
      have g1 := (h 1).1
      rw [hs0, hw0] at h0 g0
      rw [hs1, hw1] at h1 g1
      exact ⟨by omega, by omega⟩
    · rintro ⟨ht0, ht1⟩
      funext a; refine Fin.ext ?_
      match a with
      | ⟨0, _⟩ =>
        show ((cellScatterDims N M R wf).start (ix1 e) idx 0 + ((cellScatterDims N M R wf).window (ix1 e) 0 : Int)).toNat = i.val
        rw [hs0, hw0]; omega
      | ⟨1, _⟩ =>
        show ((cellScatterDims N M R wf).start (ix1 e) idx 1 + ((cellScatterDims N M R wf).window (ix1 e) 1 : Int)).toNat = j.val
        rw [hs1, hw1]; omega
  · rename_i h
    refine iff_of_false (by simp) ?_
    rintro ⟨ht0, ht1⟩
    apply h
    intro a
    match a with
    | ⟨0, _⟩ =>
      show 0 ≤ (cellScatterDims N M R wf).start (ix1 e) idx 0 + ((cellScatterDims N M R wf).window (ix1 e) 0 : Int)
        ∧ (cellScatterDims N M R wf).start (ix1 e) idx 0 + ((cellScatterDims N M R wf).window (ix1 e) 0 : Int) < (N : Int)
      rw [hs0, hw0]; omega
    | ⟨1, _⟩ =>
      show 0 ≤ (cellScatterDims N M R wf).start (ix1 e) idx 1 + ((cellScatterDims N M R wf).window (ix1 e) 1 : Int)
        ∧ (cellScatterDims N M R wf).start (ix1 e) idx 1 + ((cellScatterDims N M R wf).window (ix1 e) 1 : Int) < (M : Int)
      rw [hs1, hw1]; omega

/-- THE CELL SCATTER-ADD READ AT `(i, j)`: the operand's element plus the sum of the updates whose index pair, read
    signed, is `(i, j)`. -/
theorem scatterAdd_cells_apply (x : (⟨2, ![N, M]⟩ : Shape).Idx → EReal) (idx : IVec ⟨2, ![R, 2]⟩ w)
    (upd : (⟨1, ![R]⟩ : Shape).Idx → EReal) (i : Fin N) (j : Fin M) :
    Ideal.hostScatterAdd (cellScatterDims N M R wf) x idx upd (ix2 i j)
      = x (ix2 i j) + ∑ e ∈ Finset.univ.filter (fun e : Fin R =>
          (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [cellScatter_resultIdx_iff]

end CellScatter

/-! ## Vector scatter-add: operand `[N]`, scatter indices `[R, 1]`, updates `[R]` -/

/-- The dimension numbers of `x.at[idx].add(v)` on a vector with the indices as a column: the updates have no window
    axis, the operand's one axis is inserted and named by the scatter index. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section VecScatter
variable {N R w : Nat} (wf : ScatterDims.WF ⟨1, ![N]⟩ ⟨2, ![R, 1]⟩ ⟨1, ![R]⟩ [] [0] [0] 1)

/-- Update `e` starts at the signed index `idx[e, 0]` … -/
theorem vecScatter_start (idx : IVec ⟨2, ![R, 1]⟩ w) (e : Fin R) :
    (vecScatterDims N R wf).start (ix1 e) idx 0 = (idx (ix2 e 0)).toInt := by
  unfold ScatterDims.start
  rw [dif_pos (show (0 : Fin 1) ∈ (vecScatterDims N R wf).scatterDimsToOperandDims from List.mem_singleton.mpr rfl)]
  have hsi : (vecScatterDims N R wf).siIdx (ix1 e) ⟨List.idxOf (0 : Fin 1) (vecScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is `0`. -/
theorem vecScatter_window (e : Fin R) :
    (vecScatterDims N R wf).window (ix1 e) 0 = 0 := by
  have h : (0 : Fin 1) ∉ (vecScatterDims N R wf).sKept := by
    show (0 : Fin 1) ∉ (List.finRange 1).filter (· ∉ ([0] : List (Fin 1)))
    decide
  unfold ScatterDims.window
  rw [dif_neg h]

/-- WHERE AN UPDATE LANDS: update `e` lands on element `i` exactly when its signed index is `i`. -/
theorem vecScatter_resultIdx_iff (idx : IVec ⟨2, ![R, 1]⟩ w) (e : Fin R) (i : Fin N) :
    (vecScatterDims N R wf).resultIdx? (ix1 e) idx = some (ix1 i) ↔ (idx (ix2 e 0)).toInt = (i.val : Int) := by
  have hs0 := vecScatter_start wf idx e
  have hw0 := vecScatter_window wf e
  have hi : i.val < N := i.isLt
  unfold ScatterDims.resultIdx?
  split
  · rename_i h
    rw [Option.some.injEq]
    constructor
    · intro hf
      have h0 : ((vecScatterDims N R wf).start (ix1 e) idx 0 + ((vecScatterDims N R wf).window (ix1 e) 0 : Int)).toNat = i.val :=
        congrArg (fun f : (⟨1, ![N]⟩ : Shape).Idx => (f 0).val) hf
      have g0 := (h 0).1
      rw [hs0, hw0] at h0 g0
      omega
    · intro ht
      funext a; refine Fin.ext ?_
      match a with
      | ⟨0, _⟩ =>
        show ((vecScatterDims N R wf).start (ix1 e) idx 0 + ((vecScatterDims N R wf).window (ix1 e) 0 : Int)).toNat = i.val
        rw [hs0, hw0]; omega
  · rename_i h
    refine iff_of_false (by simp) ?_
    intro ht
    apply h
    intro a
    match a with
    | ⟨0, _⟩ =>
      show 0 ≤ (vecScatterDims N R wf).start (ix1 e) idx 0 + ((vecScatterDims N R wf).window (ix1 e) 0 : Int)
        ∧ (vecScatterDims N R wf).start (ix1 e) idx 0 + ((vecScatterDims N R wf).window (ix1 e) 0 : Int) < (N : Int)
      rw [hs0, hw0]; omega

/-- THE VECTOR SCATTER-ADD READ AT `i`: the operand's element plus the sum of the updates whose index, read signed,
    is `i`. -/
theorem scatterAdd_vec_apply (x : (⟨1, ![N]⟩ : Shape).Idx → EReal) (idx : IVec ⟨2, ![R, 1]⟩ w)
    (upd : (⟨1, ![R]⟩ : Shape).Idx → EReal) (i : Fin N) :
    Ideal.hostScatterAdd (vecScatterDims N R wf) x idx upd (ix1 i)
      = x (ix1 i) + ∑ e ∈ Finset.univ.filter (fun e : Fin R => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [vecScatter_resultIdx_iff]

end VecScatter

/-! ## Row gather: operand `[N, C]`, start indices `[R, 1]`, result `[R, C]` -/

/-- The dimension numbers of a gather of whole rows: the result's axis 1 is the offset axis (it reads the operand's
    axis 1, kept whole), the operand's axis 0 is collapsed and is the one the start index names. Their conditions `wf`
    are decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section RowGather
variable {α : Type} {N R C w : Nat}

/-- THE ROW GATHER READ AT `(e, c)`: the operand at row `idx[e, 0]`, read signed and clamped into `[0, N − 1]`, and
    column `c`. On the row axis the operand coordinate is the clamped start alone (the axis is collapsed: no offset); on
    the column axis the start is `0` (the map does not name it) and the offset is the result's own column. -/
theorem gather_rows_apply (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N R C wf).start (ix2 e c) idx 0 + (rowGatherDims N R C wf).batchCoord (ix2 e c) 0
      + (rowGatherDims N R C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e c) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e c) idx 1 + (rowGatherDims N R C wf).batchCoord (ix2 e c) 1
      + (rowGatherDims N R C wf).offCoord (ix2 e c) 1 = c.val
    rw [GatherDims.batchCoord_eq_zero _ _ _ List.not_mem_nil]
    have hs : (rowGatherDims N R C wf).start (ix2 e c) idx 1 = 0 := by
      unfold GatherDims.start
      rw [dif_neg (show (1 : Fin 2) ∉ ([0] : List (Fin 2)) by decide)]
    have hk : (1 : Fin 2) ∈ (rowGatherDims N R C wf).sKept := by
      show (1 : Fin 2) ∈ (List.finRange 2).filter (· ∉ (([0] : List (Fin 2)) ++ []))
      decide
    have ho : (rowGatherDims N R C wf).offCoord (ix2 e c) 1 = c.val := by
      unfold GatherDims.offCoord
      rw [dif_pos hk]
      rfl
    rw [hs, ho]
    omega

end RowGather

/-! ## Vector gather: operand `[N]`, start indices `[R, 1]`, result `[R]` -/

/-- The dimension numbers of `x[idx]` on a vector with the indices as a column: no offset axis, the operand's one axis
    collapsed and named by the start index. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section VecGather
variable {α : Type} {N R w : Nat}

/-- THE VECTOR GATHER READ AT `e`: the operand at `idx[e, 0]`, read signed and clamped into `[0, N − 1]`. -/
theorem gather_vec_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

end Cert.Lib.HostIndex

end
-- ==== Proof.LibScatterDims.lean ====
/-
  A scatter's dimension numbers are determined by their four data fields: a record over the row-scatter shapes whose
  update window axis is 1, whose inserted axis is 0, whose index component names operand axis 0 and whose index vector is
  axis 1 IS the row scatter's record (the remaining field is a proof). So a lemma about the row scatter applies to any
  record printed with those numbers, whatever proof it carries.

  Hence the host's accumulating row scatter, for ANY such record and any extents, read at an element: element `(i, c)`
  of the result is the operand's element plus the sum of column `c` of the update rows whose index word, read as a
  signed integer, is `i`; a row whose index is not a row of the operand contributes nothing.
-/
import proofs.«153858_j60035052863927_2_alg».proof.Proof.LibHostIndex

noncomputable section

open scoped BigOperators

namespace Cert.Lib.HostIndex

open Idealize.ShloMosaic Idealize.ShloMosaic.ValueIdx

theorem eq_rowScatterDims {N R C : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) : ∃ wf, d = rowScatterDims N R C wf := by
  obtain ⟨u, i, s, v, wf⟩ := d
  dsimp only at h1 h2 h3 h4
  subst h1 h2 h3 h4
  exact ⟨wf, rfl⟩

/-- THE HOST'S ROW SCATTER-ADD OF ANY RECORD WITH THE ROW NUMBERS, READ AT `(i, c)`: the operand's element plus the
    sum of column `c` of the update rows whose index, read signed, is `i` (rows indexed outside `[0, N)` land
    nowhere). -/
theorem hostScatterAdd_rows_apply {N R C w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![R, 1]⟩ w)
    (upd : (⟨2, ![R, C]⟩ : Shape).Idx → EReal) (i : Fin N) (c : Fin C) :
    Host.scatterAdd (F := Ideal) (φ := .f32) d x idx upd (ix2 i c)
      = x (ix2 i c) + ∑ e ∈ Finset.univ.filter (fun e : Fin R => (idx (ix2 e 0)).toInt = (i.val : Int)), upd (ix2 e c) := by
  obtain ⟨wf, rfl⟩ := eq_rowScatterDims d h1 h2 h3 h4
  exact scatterAdd_rows_apply wf x idx upd i c

end Cert.Lib.HostIndex

end
-- ==== Proof.LibRowGatherDims.lean ====
/-
  A gather's dimension numbers are determined by their seven data fields: a record over the row-gather shapes whose
  offset axis is 1, whose collapsed axis is 0, with no batching axes, whose start index names operand axis 0, whose
  index vector is axis 1 and whose slice is one whole row IS the row gather's record (the remaining field is a proof).

  Hence the host's row gather, for ANY such record and any extents, read at an element: element `(e, c)` of the result is
  the operand at column `c` of the row the index word of `e` names, that word read as a signed integer and clamped into
  `[0, N − 1]`.
-/
import proofs.«153858_j60035052863927_2_alg».proof.Proof.LibHostIndex

noncomputable section

namespace Cert.Lib.HostIndex

open Idealize.ShloMosaic Idealize.ShloMosaic.ValueIdx

theorem eq_rowGatherDims {N R C : Nat} (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) : ∃ wf, d = rowGatherDims N R C wf := by
  obtain ⟨o, cs, ob, sb, sm, iv, ss, wf⟩ := d
  dsimp only at h1 h2 h3 h4 h5 h6 h7
  subst h1 h2 h3 h4 h5 h6 h7
  exact ⟨wf, rfl⟩

/-- THE HOST'S ROW GATHER OF ANY RECORD WITH THE ROW NUMBERS, READ AT `(e, c)`: the operand at the row the index of
    `e` names (signed, clamped into `[0, N − 1]`) and column `c`. -/
theorem hostGather_rows_apply {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (e : Fin R) (c : Fin C) :
    Host.gather d x idx (ix2 e c)
      = x (ix2 ⟨min (idx (ix2 e 0)).toInt.toNat (N - 1), by omega⟩ c) := by
  obtain ⟨wf, rfl⟩ := eq_rowGatherDims d h1 h2 h3 h4 h5 h6 h7
  exact gather_rows_apply hN wf x idx e c

end Cert.Lib.HostIndex

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.LibChunkedSum.lean ====
/-
  A filtered sum over `Fin n`, cut into consecutive blocks.

  The terms of a sum over the `e : Fin n` that satisfy a predicate `p` are extended by zero to a function of a natural
  number: zero where `p` fails, zero from `n` on. Then

  * the filtered sum is the sum of that function over the numbers below `n`;
  * when `n = a * b` it is the sum, over the `a` consecutive blocks of length `b`, of the block's sum;
  * a filtered sum over `Fin b` whose predicate and terms are those of the big sum read at `off + ·` is the extended
    function summed over the one block of length `b` that starts at `off`.

  So a filtered sum over all of `Fin (a * b)` is the sum of the `a` filtered sums over its blocks. Only a commutative
  additive monoid is needed: no subtraction, no cancellation, no finiteness of the summands.
-/
import Mathlib

namespace ChunkedSum

open Finset

variable {M : Type*} [AddCommMonoid M]

/-- The terms of the filtered sum, extended by zero to all natural numbers. -/
def ext0 {n : ℕ} (p : Fin n → Prop) [DecidablePred p] (g : Fin n → M) (k : ℕ) : M :=
  if h : k < n then (if p ⟨k, h⟩ then g ⟨k, h⟩ else 0) else 0

/-- A sum over the numbers below `a * b`, read as `a` consecutive blocks of length `b`. -/
theorem sum_range_blocks (a b : ℕ) (f : ℕ → M) :
    ∑ k ∈ range (a * b), f k = ∑ i ∈ range a, ∑ j ∈ range b, f (i * b + j) := by
  induction a with
  | zero => simp
  | succ a ih => rw [Nat.succ_mul, sum_range_add, ih, sum_range_succ]

/-- The filtered sum is the sum of the extended terms over the numbers below `n`. -/
theorem sum_filter_eq_sum_range {n : ℕ} (p : Fin n → Prop) [DecidablePred p] (g : Fin n → M) :
    ∑ e ∈ univ.filter p, g e = ∑ k ∈ range n, ext0 p g k := by
  rw [sum_filter, ← Fin.sum_univ_eq_sum_range (ext0 p g) n]
  refine sum_congr rfl fun e _ => ?_
  unfold ext0
  rw [dif_pos e.isLt]

/-- The filtered sum over `Fin n`, `n = a * b`, block by block. -/
theorem sum_filter_eq_sum_blocks {n : ℕ} (a b : ℕ) (hn : n = a * b) (p : Fin n → Prop) [DecidablePred p]
    (g : Fin n → M) :
    ∑ e ∈ univ.filter p, g e = ∑ i ∈ range a, ∑ j ∈ range b, ext0 p g (i * b + j) := by
  subst hn
  rw [sum_filter_eq_sum_range]
  exact sum_range_blocks a b _

/-- A filtered sum over one block: predicate and terms are the big sum's at `off + ·`. -/
theorem sum_filter_block {n b : ℕ} (off : ℕ) (hle : off + b ≤ n) (p : Fin n → Prop) [DecidablePred p] (g : Fin n → M)
    (p' : Fin b → Prop) [DecidablePred p'] (g' : Fin b → M)
    (hp : ∀ e : Fin b, p' e ↔ p ⟨off + e.val, by have := e.isLt; omega⟩)
    (hg : ∀ e : Fin b, g' e = g ⟨off + e.val, by have := e.isLt; omega⟩) :
    ∑ e ∈ univ.filter p', g' e = ∑ j ∈ range b, ext0 p g (off + j) := by
  rw [sum_filter, ← Fin.sum_univ_eq_sum_range (fun j => ext0 p g (off + j)) b]
  refine sum_congr rfl fun e _ => ?_
  unfold ext0
  rw [dif_pos (by have := e.isLt; omega : off + e.val < n), hg e]
  exact if_congr (hp e) rfl rfl

/-- A sum over the eight numbers below 8, written out left to right. -/
theorem sum_range_eight (f : ℕ → M) :
    ∑ i ∈ range 8, f i = f 0 + f 1 + f 2 + f 3 + f 4 + f 5 + f 6 + f 7 := by
  simp only [sum_range_succ, sum_range_zero, zero_add]

end ChunkedSum
-- ==== Proof.LayerLaw.lean ====
/-
  One propagation step, spelt in eight runs or in one pass, is the same array at the ideal instance.

  Read at node row `n` and column `c`, the one-pass spelling is 0 plus the sum, over the edges `e` below 2,000,000 whose
  row word read as a signed integer is `n`, of `vals e · x(row(cols e), c)`, where `row` wraps a negative column word by
  the number of rows and clamps the result into the table. The run starting at edge `off` is the same sum over the
  250,000 edges `off + e'`; the eight runs start at the multiples of 250,000 and are added, in order, onto a zero array.
  The extended reals are a commutative additive monoid, so the sum over all edges is the sum of the sums over the eight
  consecutive blocks of edges, and the zeros added on the way change nothing.
-/
import proofs.«153858_j60035052863927_2_alg».proof.Proof.HostLayers
import proofs.«153858_j60035052863927_2_alg».proof.Proof.LibScatterDims
import proofs.«153858_j60035052863927_2_alg».proof.Proof.LibRowGatherDims
import proofs.«153858_j60035052863927_2_alg».proof.Proof.LibEdgeReads
import proofs.«153858_j60035052863927_2_alg».proof.Proof.LibChunkedSum

noncomputable section

open scoped BigOperators

namespace Cert.Bridge

open Idealize.ShloMosaic Idealize.ShloMosaic.ValueIdx
open Cert.Lib.HostIndex Cert.Lib.EdgeReads

/-! ## One gather, one product, one scatter-add, over any number of edges -/

/-- The rows of `x` the (already wrapped) column words name, each times its edge's value, added by destination row
    onto `z`, read at `(n, c)`: `z` there plus the sum over the edges whose row word, read signed, is `n`. -/
theorem edgeLayer_apply {N R C : ℕ} (hN : 0 < N)
    (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (g : GatherDims ⟨2, ![N, C]⟩ ⟨2, ![R, 1]⟩ ⟨2, ![R, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (hb : (⟨1, ![R]⟩ : Shape).BroadcastsInDim ⟨2, ![R, 1]⟩ ![0])
    (hbb : (⟨2, ![R, 1]⟩ : Shape).BroadcastsInDim ⟨2, ![R, C]⟩ ![0, 1])
    (z x : (⟨2, ![N, C]⟩ : Shape).Idx → EReal) (rows wcols : IVec ⟨1, ![R]⟩ 32)
    (vals : (⟨1, ![R]⟩ : Shape).Idx → EReal) (n : Fin N) (c : Fin C) :
    Host.scatterAdd (F := Ideal) (φ := .f32) d z (broadcastInDim ⟨2, ![R, 1]⟩ ![0] hb rows)
        (mulf (F := Ideal) (φ := .f32)
          (broadcastInDim ⟨2, ![R, C]⟩ ![0, 1] hbb (broadcastInDim ⟨2, ![R, 1]⟩ ![0] hb vals))
          (Host.gather g x (broadcastInDim ⟨2, ![R, 1]⟩ ![0] hb wcols))) (ix2 n c)
      = z (ix2 n c) + ∑ e ∈ Finset.univ.filter (fun e : Fin R => (rows (ix1 e)).toInt = (n.val : ℤ)),
          vals (ix1 e) * x (ix2 ⟨min (wcols (ix1 e)).toInt.toNat (N - 1), by omega⟩ c) := by
  rw [hostScatterAdd_rows_apply d h1 h2 h3 h4]
  congr 1
  refine Finset.sum_congr (Finset.filter_congr fun e _ => ?_) fun e _ => ?_
  · rw [column_of_vector_apply]
  · rw [mulf_apply, column_broadcast_apply, column_of_vector_apply,
      hostGather_rows_apply hN g g1 g2 g3 g4 g5 g6 g7]
    have hw : broadcastInDim ⟨2, ![R, 1]⟩ ![0] hb wcols (ix2 e 0) = wcols (ix1 e) := column_of_vector_apply _ _ _ _
    simp only [hw]

/-! ## The wrap, word by word -/

/-- A column word with a negative one moved up by the number of rows. -/
def wrapWord (w : BitVec 32) : BitVec 32 :=
  Scalar.select (IntOp.cmpi .slt w 0#32) (IntOp.addi w 150000#32) w

theorem wrapK_apply (cs : (⟨Cert.KernelIdeal.S250000, .i32⟩ : BufTy).Contents (Elt Ideal)) (i : Cert.KernelIdeal.S250000.Idx) :
    wrapK (F := Ideal) cs i = wrapWord (cs i) := rfl

theorem wrapR_apply (cs : (⟨Cert.ReferenceIdeal.S2000000, .i32⟩ : BufTy).Contents (Elt Ideal))
    (i : Cert.ReferenceIdeal.S2000000.Idx) : wrapR (F := Ideal) cs i = wrapWord (cs i) := rfl

/-- A run of a vector read at `e` is the vector at `off + e`. -/
theorem run_apply {α : Type} {a b : ℕ} (off : ℕ) (v : (⟨1, ![a]⟩ : Shape).Idx → α)
    (hs : (⟨1, ![a]⟩ : Shape).Slices ![off] ⟨1, ![b]⟩) (e : Fin b) (h : off + e.val < a) :
    extractStridedSlice ⟨1, ![b]⟩ ![off] v hs (ix1 e) = v (ix1 ⟨off + e.val, h⟩) :=
  extractStridedSlice_apply _ v hs _ _ fun k => by
    match k with
    | ⟨0, _⟩ => rfl

/-! ## The two spellings read at an element -/

section Reads

variable (rows cols : (⟨Cert.KernelIdeal.S2000000, .i32⟩ : BufTy).Contents (Elt Ideal))
  (vals : (⟨Cert.KernelIdeal.S2000000, .f32⟩ : BufTy).Contents (Elt Ideal))
  (x : (⟨Cert.KernelIdeal.S150000x64, .f32⟩ : BufTy).Contents (Elt Ideal))

/-- Edge `e` lands in node row `n`: its row word, read as a signed integer, is `n`. -/
def edgeHits (n : Fin 150000) (e : Fin 2000000) : Prop := (rows (ix1 e)).toInt = (n.val : ℤ)

instance (n : Fin 150000) : DecidablePred (edgeHits rows n) := fun e => Int.instDecidableEq _ _

/-- What edge `e` adds to column `c` of the row it lands in: its value times column `c` of the row of `x` its wrapped
    column word names (clamped into the table). -/
def edgeTerm (c : Fin 64) (e : Fin 2000000) : EReal :=
  vals (ix1 e) * x (ix2 ⟨min (wrapWord (cols (ix1 e))).toInt.toNat (150000 - 1), by omega⟩ c)

theorem zerosK_apply (i : Cert.KernelIdeal.S150000x64.Idx) : zerosK (F := Ideal) i = 0 :=
  Ideal.ofBits_zero_f32

/-- The one-pass spelling at `(n, c)`. -/
theorem layerR_apply (n : Fin 150000) (c : Fin 64) :
    layerR (F := Ideal) rows cols vals x (ix2 n c)
      = 0 + ∑ e ∈ Finset.univ.filter (edgeHits rows n), edgeTerm cols vals x c e := by
  unfold layerR
  refine (edgeLayer_apply (by norm_num) _ rfl rfl rfl rfl _ rfl rfl rfl rfl rfl rfl rfl _ _ _ _ _ _ _ n c).trans ?_
  exact congrArg₂ (· + ·) Ideal.ofBits_zero_f32 rfl

/-- The run starting at edge `off`, at `(n, c)`: the terms of the edges `off + j`, `j` below 250,000. -/
theorem runK_apply (off : ℕ) (hs : Cert.KernelIdeal.S2000000.Slices ![off] Cert.KernelIdeal.S250000)
    (hoff : off + 250000 ≤ 2000000) (n : Fin 150000) (c : Fin 64) :
    runK (F := Ideal) off hs rows cols vals x (ix2 n c)
      = 0 + ∑ j ∈ Finset.range 250000, ChunkedSum.ext0 (edgeHits rows n) (edgeTerm cols vals x c) (off + j) := by
  unfold runK
  refine (edgeLayer_apply (by norm_num) _ rfl rfl rfl rfl _ rfl rfl rfl rfl rfl rfl rfl _ _ _ _ _ _ _ n c).trans ?_
  refine congrArg₂ (· + ·) (zerosK_apply _) ?_
  · refine ChunkedSum.sum_filter_block off hoff (edgeHits rows n) (edgeTerm cols vals x c) _ _ (fun e => ?_) (fun e => ?_)
    · rw [run_apply off rows hs e (by have := e.isLt; omega)]
      exact Iff.rfl
    · have hc : wrapK (F := Ideal) (extractStridedSlice Cert.KernelIdeal.S250000 ![off] cols hs) (ix1 e)
          = wrapWord (cols (ix1 ⟨off + e.val, by have := e.isLt; omega⟩)) := by
        rw [wrapK_apply, run_apply off cols hs e (by have := e.isLt; omega)]
      rw [run_apply off vals hs e (by have := e.isLt; omega)]
      unfold edgeTerm
      simp only [hc]

/-- THE TWO SPELLINGS AT `(n, c)`: the sum over all edges is the sum of the sums over the eight consecutive runs. -/
theorem layerK_eq_layerR_apply (n : Fin 150000) (c : Fin 64) :
    layerK (F := Ideal) rows cols vals x (ix2 n c) = layerR (F := Ideal) rows cols vals x (ix2 n c) := by
  rw [layerR_apply, ChunkedSum.sum_filter_eq_sum_blocks 8 250000 (by norm_num), ChunkedSum.sum_range_eight]
  unfold layerK
  rw [addf_apply, addf_apply, addf_apply, addf_apply, addf_apply, addf_apply, addf_apply, addf_apply]
  rw [runK_apply rows cols vals x 0 _ (by norm_num), runK_apply rows cols vals x 250000 _ (by norm_num),
    runK_apply rows cols vals x 500000 _ (by norm_num), runK_apply rows cols vals x 750000 _ (by norm_num),
    runK_apply rows cols vals x 1000000 _ (by norm_num), runK_apply rows cols vals x 1250000 _ (by norm_num),
    runK_apply rows cols vals x 1500000 _ (by norm_num), runK_apply rows cols vals x 1750000 _ (by norm_num),
    zerosK_apply]
  -- with `B off` the sum over the run starting at `off`: zeros added on the way change nothing
  have hB : ∀ B : ℕ → EReal,
      0 + (0 + B 0) + (0 + B 250000) + (0 + B 500000) + (0 + B 750000) + (0 + B 1000000) + (0 + B 1250000)
          + (0 + B 1500000) + (0 + B 1750000)
        = 0 + (B (0 * 250000) + B (1 * 250000) + B (2 * 250000) + B (3 * 250000) + B (4 * 250000) + B (5 * 250000)
          + B (6 * 250000) + B (7 * 250000)) := by
    intro B
    simp only [zero_add, Nat.reduceMul]
  exact hB fun off => ∑ j ∈ Finset.range 250000, ChunkedSum.ext0 (edgeHits rows n) (edgeTerm cols vals x c) (off + j)

end Reads

/-- The eight-run spelling and the one-pass spelling of a propagation step are the same array. -/
theorem layerK_eq_layerR (rows cols : (⟨Cert.KernelIdeal.S2000000, .i32⟩ : BufTy).Contents (Elt Ideal))
    (vals : (⟨Cert.KernelIdeal.S2000000, .f32⟩ : BufTy).Contents (Elt Ideal))
    (x : (⟨Cert.KernelIdeal.S150000x64, .f32⟩ : BufTy).Contents (Elt Ideal)) :
    layerK (F := Ideal) rows cols vals x = layerR (F := Ideal) rows cols vals x := by
  funext i
  rw [eq_ix2 i]
  exact layerK_eq_layerR_apply rows cols vals x (i 0) (i 1)

end Cert.Bridge

end
-- ==== Proof.LibHalfSums.lean ====
/-
  SUMS OVER THE TWO HALVES OF AN INDEX RANGE OF EVEN LENGTH, over an arbitrary half length `m` and any additive
  commutative monoid (nothing here mentions a program):

  * a sum over `m + m` entries whose terms past the first `m` are replaced by zero is the sum over the first `m` entries;
  * a sum over `m + m` entries whose first `m` terms are replaced by zero is the sum over the last `m` entries.

  The condition is written as the decided comparison `decide (l < m)` set equal to `true` or to `false`, the form a
  definition that selects a half by a Boolean takes after the Boolean is fixed.
-/
import Mathlib.Algebra.BigOperators.Fin

open scoped BigOperators

namespace Cert.Lib.HalfSums

/-- A sum over `m + m` entries that keeps only the first `m` is the sum over the first half. -/
theorem sum_lo_half {M : Type*} [AddCommMonoid M] (m : ℕ) (g : Fin (m + m) → M) :
    (∑ l : Fin (m + m), if decide (l.val < m) = true then g l else 0) = ∑ c : Fin m, g (Fin.castAdd m c) := by
  rw [Fin.sum_univ_add]
  have h2 : (∑ c : Fin m, if decide ((Fin.natAdd m c : Fin (m + m)).val < m) = true then g (Fin.natAdd m c) else 0) = 0 :=
    Finset.sum_eq_zero fun c _ => if_neg (by simp)
  rw [h2, add_zero]
  exact Finset.sum_congr rfl fun c _ => if_pos (by simp)

/-- A sum over `m + m` entries that keeps only the last `m` is the sum over the second half. -/
theorem sum_hi_half {M : Type*} [AddCommMonoid M] (m : ℕ) (g : Fin (m + m) → M) :
    (∑ l : Fin (m + m), if decide (l.val < m) = false then g l else 0) = ∑ c : Fin m, g (Fin.natAdd m c) := by
  rw [Fin.sum_univ_add]
  have h1 : (∑ c : Fin m, if decide ((Fin.castAdd m c : Fin (m + m)).val < m) = false then g (Fin.castAdd m c) else 0) = 0 :=
    Finset.sum_eq_zero fun c _ => if_neg (by simp)
  rw [h1, zero_add]
  exact Finset.sum_congr rfl fun c _ => if_pos (by simp)

end Cert.Lib.HalfSums
-- ==== Proof.LibFloatWords.lean ====
/-
  A FEW 32-BIT FLOAT WORDS AS EXTENDED REALS, AND DIVISION LAWS THAT FOLLOW, at the ideal values (nothing here mentions
  a program):

  * the word `0x3E800000` is the real one quarter, the word `0x40800000` the real four, and the word `0x2B8CBCCC` (the
    float nearest 1e-12) is positive;
  * so a product with the word one quarter is the quotient by the word four, for every extended real;
  * a maximum with that positive word is never zero, so a product with one over such a maximum is the quotient by it,
    for every extended real (no finiteness is needed: both sides are the product with the inverse);
  * the host's square root at an index is the ideal square root of the element.
-/
import Idealize.ShloMosaic.Lib.IdealHost
import Idealize.ShloMosaic.PureOps.Ideal.Laws

noncomputable section

namespace Cert.Lib.FloatWords

open Idealize.ShloMosaic

/-- The f32 pattern `0x3E800000` is the real one quarter. -/
theorem ofBits_quarter_f32 : Ideal.ofBits .f32 0x3E800000#32 = (((1 : ℝ) / 4 : ℝ) : EReal) := by
  simp [Ideal.ofBits, Ideal.ieee, -EReal.coe_mul]; norm_num

/-- The f32 pattern `0x40800000` is the real four. -/
theorem ofBits_four_f32 : Ideal.ofBits .f32 0x40800000#32 = ((4 : ℝ) : EReal) := by
  simp [Ideal.ofBits, Ideal.ieee, -EReal.coe_mul]; norm_num

/-- The f32 pattern `0x2B8CBCCC` denotes a positive real. -/
theorem ofBits_floor_f32_pos : (0 : EReal) < Ideal.ofBits .f32 0x2B8CBCCC#32 := by
  simp [Ideal.ofBits, Ideal.ieee, -EReal.coe_mul]

/-- A product with the word one quarter is the quotient by the word four. -/
theorem mul_quarter (x : EReal) :
    x * Ideal.ofBits .f32 0x3E800000#32 = Ideal.div x (Ideal.ofBits .f32 0x40800000#32) := by
  rw [ofBits_quarter_f32, ofBits_four_f32, Ideal.div_coe (by norm_num)]

/-- A maximum with the positive word `0x2B8CBCCC` is never zero. -/
theorem max_floor_ne_zero (y : EReal) : max y (Ideal.ofBits .f32 0x2B8CBCCC#32) ≠ 0 :=
  (lt_of_lt_of_le ofBits_floor_f32_pos (le_max_right _ _)).ne'

/-- A product with one (the word `0x3F800000`) over a maximum with the positive word `0x2B8CBCCC` is the quotient by that
    maximum, for every extended real. -/
theorem mul_one_div_max_floor (x y : EReal) :
    x * Ideal.div (Ideal.ofBits .f32 0x3F800000#32) (max y (Ideal.ofBits .f32 0x2B8CBCCC#32))
      = Ideal.div x (max y (Ideal.ofBits .f32 0x2B8CBCCC#32)) := by
  rw [Ideal.ofBits_one_f32]
  exact Ideal.mul_one_div (max_floor_ne_zero y)

/-- The host's square root at an index is the ideal square root of the element. -/
theorem hostSqrt_apply {s : Shape} {φ : FTy} (x : FVec Ideal s φ) (i : s.Idx) : Host.sqrt x i = Ideal.sqrt (x i) := rfl

end Cert.Lib.FloatWords

end
-- ==== Proof.PoolLaw.lean ====
/-
  THE POOLING STEP ON PACKED ROWS IS THE REFERENCE'S POOLING ON NODE ROWS, at the ideal values, as whole arrays.

  A node array `[150000, 64]` and its packed form `[75000, 128]` are the same row-major sequence: node row `n`, column
  `c` sits at packed row `n / 2`, entry `64·(n % 2) + c`. At that entry:

  * the half of the packed row that the entry lies in is the first half exactly when `n` is even, and the sum of squares
    over that half — a sum over all 128 entries with the other half's terms zero — is the sum of the squares of the 64
    entries of node row `n`; the reference's sum of the same squares starts from the word zero, which adds nothing;
  * a product with one over the floored norm is the quotient by the floored norm, because the floored norm is at least
    the floor word, which is positive, hence never zero — for every extended real, finite or not;
  * a product with the word one quarter is the quotient by the word four.

  The three scaled layers are added onto the base in the same order on both sides.
-/
import proofs.«153858_j60035052863927_2_alg».proof.Proof.HostLayers
import proofs.«153858_j60035052863927_2_alg».proof.Proof.PoolSpec
import proofs.«153858_j60035052863927_2_alg».proof.Proof.LibEdgeReads
import proofs.«153858_j60035052863927_2_alg».proof.Proof.LibRowReads
import proofs.«153858_j60035052863927_2_alg».proof.Proof.LibHalfSums
import proofs.«153858_j60035052863927_2_alg».proof.Proof.LibFloatWords
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Bridge

open Idealize.ShloMosaic Idealize.ShloMosaic.ValueIdx Cert.Lib.HalfSums Cert.Lib.FloatWords

/-! ## The two reshapes read at an index -/

section Reshapes

open Cert.KernelIdeal Cert.KernelIdeal.Facts₀

/-- The packed array at `(k, l)` is the node array at any `(n, c)` with the same row-major position. -/
theorem packK_apply (x : (⟨S150000x64, .f32⟩ : BufTy).Contents (Elt Ideal)) (n : Fin 150000) (c : Fin 64)
    (k : Fin 75000) (l : Fin 128) (hk : n.val * 64 + c.val = k.val * 128 + l.val) :
    packK (F := Ideal) x (ix2 k l) = x (ix2 n c) := by
  unfold packK
  refine shapeCast_apply x _ (ix2 k l) (ix2 n c) ?_
  rw [Shape.rowMajor_val_two, Shape.rowMajor_val_two]
  exact hk

/-- The unpacked array at `(n, c)` is the packed array at any `(k, l)` with the same row-major position. -/
theorem unpackK_apply (y : (⟨S75000x128, .f32⟩ : BufTy).Contents (Elt Ideal)) (n : Fin 150000) (c : Fin 64)
    (k : Fin 75000) (l : Fin 128) (hk : k.val * 128 + l.val = n.val * 64 + c.val) :
    unpackK (F := Ideal) y (ix2 n c) = y (ix2 k l) := by
  unfold unpackK
  refine shapeCast_apply y _ (ix2 n c) (ix2 k l) ?_
  rw [Shape.rowMajor_val_two, Shape.rowMajor_val_two]
  exact hk

/-! ## The half sums of a packed row are the node rows' sums of squares -/

/-- The first half of packed row `k` is node row `2k`. -/
theorem halfSq_pack_even (h : (⟨S150000x64, .f32⟩ : BufTy).Contents (Elt Ideal)) (n : Fin 150000) (k : Fin 75000)
    (hn : n.val = 2 * k.val) :
    halfSq (packK (F := Ideal) h) k true = ∑ c' : Fin 64, h (ix2 n c') * h (ix2 n c') := by
  unfold halfSq
  refine (sum_lo_half 64 (fun l => packK (F := Ideal) h (ix2 k l) * packK (F := Ideal) h (ix2 k l))).trans ?_
  refine Finset.sum_congr rfl fun c' _ => ?_
  rw [packK_apply h n c' k (Fin.castAdd 64 c') (by rw [Fin.coe_castAdd]; omega)]

/-- The second half of packed row `k` is node row `2k + 1`. -/
theorem halfSq_pack_odd (h : (⟨S150000x64, .f32⟩ : BufTy).Contents (Elt Ideal)) (n : Fin 150000) (k : Fin 75000)
    (hn : n.val = 2 * k.val + 1) :
    halfSq (packK (F := Ideal) h) k false = ∑ c' : Fin 64, h (ix2 n c') * h (ix2 n c') := by
  unfold halfSq
  refine (sum_hi_half 64 (fun l => packK (F := Ideal) h (ix2 k l) * packK (F := Ideal) h (ix2 k l))).trans ?_
  refine Finset.sum_congr rfl fun c' _ => ?_
  rw [packK_apply h n c' k (Fin.natAdd 64 c') (by rw [Fin.coe_natAdd]; omega)]

/-- The factor of the packed entry that holds node entry `(n, c)` is the reciprocal floored norm of node row `n`. -/
theorem scaleK_pack (h : (⟨S150000x64, .f32⟩ : BufTy).Contents (Elt Ideal)) (n : Fin 150000) (c : Fin 64)
    (k : Fin 75000) (l : Fin 128) (hk : k.val = n.val / 2) (hl : l.val = 64 * (n.val % 2) + c.val) :
    scaleK (packK (F := Ideal) h) k l = recipNorm (∑ c' : Fin 64, h (ix2 n c') * h (ix2 n c')) := by
  unfold scaleK
  rcases Nat.mod_two_eq_zero_or_one n.val with h0 | h1
  · rw [if_pos (by have := c.isLt; omega), halfSq_pack_even h n k (by omega)]
  · rw [if_neg (by omega), halfSq_pack_odd h n k (by omega)]

end Reshapes

/-- A product with the reciprocal floored norm is the quotient by the floored norm, for every extended real. -/
theorem mul_recipNorm (x s : EReal) :
    x * recipNorm s = Ideal.div x (max (Ideal.sqrt s) (Ideal.ofBits .f32 0x2B8CBCCC#32)) := by
  unfold recipNorm
  exact mul_one_div_max_floor x (Ideal.sqrt s)

/-! ## The reference's host operations read at an index -/

section Reference

open Cert.ReferenceIdeal Cert.ReferenceIdeal.Facts₀

/-- A normalised layer at `(n, c)`: the entry divided by the floored norm of row `n`. -/
theorem normedR_apply (h : (⟨S150000x64, .f32⟩ : BufTy).Contents (Elt Ideal)) (n : Fin 150000) (c : Fin 64) :
    normedR (F := Ideal) h (ix2 n c)
      = Ideal.div (h (ix2 n c))
          (max (Ideal.sqrt (∑ c' : Fin 64, h (ix2 n c') * h (ix2 n c'))) (Ideal.ofBits .f32 0x2B8CBCCC#32)) := by
  unfold normedR
  rw [hostDivf_apply, Cert.Lib.EdgeReads.column_broadcast_apply, maximumf_apply]
  rw [hostSqrt_apply, Cert.Lib.EdgeReads.column_of_vector_apply, broadcastInDim_scalar_apply, constant_apply, hostReduceAdd_apply]
  have hred : S150000x64.Reduces [1] S150000 := by decide
  rw [Ideal.hostReduceAdd_single reducesTo_S150000x64_S150000_d1 hred, constant_apply, Ideal.ofBits_zero_f32, zero_add]
  refine congrArg (fun s => Ideal.div (h (ix2 n c)) (max (Ideal.sqrt s) (Ideal.ofBits .f32 0x2B8CBCCC#32))) ?_
  refine Finset.sum_congr rfl fun c' _ => ?_
  exact congrArg (fun i => h i * h i) (Cert.LibRowReads.lift_row hred n c')

/-- The reference's pooled array at `(n, c)`: the base plus the three normalised layers, in order, over the word 4. -/
theorem poolR_apply (b h1 h2 h3 : (⟨S150000x64, .f32⟩ : BufTy).Contents (Elt Ideal)) (n : Fin 150000) (c : Fin 64) :
    poolR (F := Ideal) b h1 h2 h3 (ix2 n c)
      = Ideal.div (((b (ix2 n c) + normedR (F := Ideal) h1 (ix2 n c)) + normedR (F := Ideal) h2 (ix2 n c))
          + normedR (F := Ideal) h3 (ix2 n c)) (Ideal.ofBits .f32 0x40800000#32) := by
  unfold poolR
  rw [hostDivf_apply, broadcastInDim_scalar_apply, constant_apply, addf_apply, addf_apply, addf_apply]

end Reference

/-! ## The two pooled arrays are equal -/

/-- The pooling step on packed rows, unpacked, is the reference's pooling on node rows: for arbitrary arrays. -/
theorem unpack_poolK_pack (b h1 h2 h3 : (⟨Cert.KernelIdeal.S150000x64, .f32⟩ : BufTy).Contents (Elt Ideal)) :
    unpackK (F := Ideal) (poolK (packK (F := Ideal) b) (packK (F := Ideal) h1) (packK (F := Ideal) h2) (packK (F := Ideal) h3))
      = poolR (F := Ideal) b h1 h2 h3 := by
  funext i
  obtain ⟨n, c, rfl⟩ : ∃ (n : Fin 150000) (c : Fin 64), i = ix2 n c := ⟨i 0, i 1, eq_ix2 i⟩
  have hn := n.isLt
  have hc := c.isLt
  have hk : n.val / 2 < 75000 := by omega
  have hl : 64 * (n.val % 2) + c.val < 128 := by omega
  have hpos : n.val * 64 + c.val = (⟨n.val / 2, hk⟩ : Fin 75000).val * 128 + (⟨64 * (n.val % 2) + c.val, hl⟩ : Fin 128).val := by
    show n.val * 64 + c.val = n.val / 2 * 128 + (64 * (n.val % 2) + c.val)
    omega
  rw [unpackK_apply _ n c ⟨n.val / 2, hk⟩ ⟨64 * (n.val % 2) + c.val, hl⟩ hpos.symm]
  rw [poolR_apply, normedR_apply, normedR_apply, normedR_apply]
  show (((packK (F := Ideal) b (ix2 _ _) + packK (F := Ideal) h1 (ix2 _ _) * scaleK (packK (F := Ideal) h1) _ _)
      + packK (F := Ideal) h2 (ix2 _ _) * scaleK (packK (F := Ideal) h2) _ _)
      + packK (F := Ideal) h3 (ix2 _ _) * scaleK (packK (F := Ideal) h3) _ _) * Ideal.ofBits .f32 0x3E800000#32 = _
  rw [packK_apply b n c _ _ hpos, packK_apply h1 n c _ _ hpos, packK_apply h2 n c _ _ hpos, packK_apply h3 n c _ _ hpos,
    scaleK_pack h1 n c _ _ rfl rfl, scaleK_pack h2 n c _ _ rfl rfl, scaleK_pack h3 n c _ _ rfl rfl,
    mul_recipNorm, mul_recipNorm, mul_recipNorm, mul_quarter]

end Cert.Bridge

end
-- ==== Proof.RefValue.lean ====
/-
  The reference program read as three propagation steps and one pooling.

  Its operations, taken one at a time by the generated stage functions, are: the node table (the two embedding tables
  one above the other); three times the one-pass propagation step of HostLayers.lean, each applied to the previous
  layer; and the pooling of the table and the three layers — each layer divided by its rows' floored norms, the four
  arrays added in order, the total divided by the word 4. The two results are the first 100000 and the last 50000 node
  rows of that array. Each equation below holds by unfolding the stage functions.
-/
import proofs.«153858_j60035052863927_2_alg».proof.Proof.Gen.ReferenceIdeal.Read
import proofs.«153858_j60035052863927_2_alg».proof.Proof.HostLayers
import Idealize.ShloMosaic.PureOps.Ideal

noncomputable section

namespace Cert.Bridge

open Idealize.ShloMosaic Idealize.ShloMosaic.TcCoe
open Cert.ReferenceIdeal Cert.ReferenceIdeal.Facts₀ Cert.ReferenceIdeal.Read

variable (x0 : (⟨S100000x64, .f32⟩ : BufTy).Contents (Elt Ideal)) (x1 : (⟨S50000x64, .f32⟩ : BufTy).Contents (Elt Ideal))
  (x2 x3 : (⟨S2000000, .i32⟩ : BufTy).Contents (Elt Ideal)) (x4 : (⟨S2000000, .f32⟩ : BufTy).Contents (Elt Ideal))

/-- The node table. -/
theorem ref_table : val_main_v0 (F := Ideal) x0 x1 = tableK (F := Ideal) x0 x1 := rfl

/-- The first layer: one propagation step of the table. -/
theorem ref_layer1 : val_main_v13 (F := Ideal) x0 x1 x2 x3 x4 = layerR (F := Ideal) x2 x3 x4 (val_main_v0 (F := Ideal) x0 x1) := rfl

/-- The second layer: one step of the first. -/
theorem ref_layer2 : val_main_v32 (F := Ideal) x0 x1 x2 x3 x4 = layerR (F := Ideal) x2 x3 x4 (val_main_v13 (F := Ideal) x0 x1 x2 x3 x4) := rfl

/-- The third layer: one step of the second. -/
theorem ref_layer3 : val_main_v51 (F := Ideal) x0 x1 x2 x3 x4 = layerR (F := Ideal) x2 x3 x4 (val_main_v32 (F := Ideal) x0 x1 x2 x3 x4) := rfl

/-- The pooled node array. -/
theorem ref_pool : val_main_v59 (F := Ideal) x0 x1 x2 x3 x4
    = poolR (F := Ideal) (val_main_v0 (F := Ideal) x0 x1) (val_main_v13 (F := Ideal) x0 x1 x2 x3 x4)
        (val_main_v32 (F := Ideal) x0 x1 x2 x3 x4) (val_main_v51 (F := Ideal) x0 x1 x2 x3 x4) := rfl

/-- The table and the three layers of the one-pass spelling, named. -/
def layersR : (⟨S150000x64, .f32⟩ : BufTy).Contents (Elt Ideal) × (⟨S150000x64, .f32⟩ : BufTy).Contents (Elt Ideal)
    × (⟨S150000x64, .f32⟩ : BufTy).Contents (Elt Ideal) × (⟨S150000x64, .f32⟩ : BufTy).Contents (Elt Ideal) :=
  let e := tableK (F := Ideal) x0 x1
  let h1 := layerR (F := Ideal) x2 x3 x4 e
  let h2 := layerR (F := Ideal) x2 x3 x4 h1
  let h3 := layerR (F := Ideal) x2 x3 x4 h2
  (e, h1, h2, h3)

/-- The reference's pooled array from the named table and layers. -/
theorem ref_pool_layers : val_main_v59 (F := Ideal) x0 x1 x2 x3 x4
    = poolR (F := Ideal) (layersR x0 x1 x2 x3 x4).1 (layersR x0 x1 x2 x3 x4).2.1 (layersR x0 x1 x2 x3 x4).2.2.1
        (layersR x0 x1 x2 x3 x4).2.2.2 := by
  rw [ref_pool, ref_layer3, ref_layer2, ref_layer1, ref_table]
  rfl

end Cert.Bridge

end
-- ==== Proof.Equal.lean ====
/-
  The two programs compute one function of the arguments.

  The kernel program's pooled node array — the unpacked packed-row pooling of the packed table and of three layers, each
  layer a run-by-run propagation step of the previous one — is the reference's pooled array: a run-by-run step is the
  one-pass step (LayerLaw.lean: a sum over the edges regrouped into eight consecutive runs, which the extended reals
  allow for all values), and the packed-row pooling of packed arrays, unpacked, is the reference's pooling of the node
  arrays (PoolLaw.lean: a product with a reciprocal of a positive quantity is the quotient, for all values). No
  finiteness of the inputs is used.
-/
import proofs.«153858_j60035052863927_2_alg».proof.Proof.LayerLaw
import proofs.«153858_j60035052863927_2_alg».proof.Proof.PoolLaw
import proofs.«153858_j60035052863927_2_alg».proof.Proof.RefValue

noncomputable section

namespace Cert.Bridge

open Idealize.ShloMosaic Idealize.ShloMosaic.TcCoe
open Cert.KernelIdeal

variable (x0 : (⟨S100000x64, .f32⟩ : BufTy).Contents (Elt Ideal)) (x1 : (⟨S50000x64, .f32⟩ : BufTy).Contents (Elt Ideal))
  (x2 x3 : (⟨S2000000, .i32⟩ : BufTy).Contents (Elt Ideal)) (x4 : (⟨S2000000, .f32⟩ : BufTy).Contents (Elt Ideal))

/-- The kernel program's pooled node array is the reference's. -/
theorem pooled_eq_ref :
    unpackK (F := Ideal) (poolK (R := 75000) (packK (F := Ideal) (tableK (F := Ideal) x0 x1))
        (packK (F := Ideal) (layerK (F := Ideal) x2 x3 x4 (tableK (F := Ideal) x0 x1)))
        (packK (F := Ideal) (layerK (F := Ideal) x2 x3 x4 (layerK (F := Ideal) x2 x3 x4 (tableK (F := Ideal) x0 x1))))
        (packK (F := Ideal) (layerK (F := Ideal) x2 x3 x4 (layerK (F := Ideal) x2 x3 x4 (layerK (F := Ideal) x2 x3 x4 (tableK (F := Ideal) x0 x1))))))
      = Cert.ReferenceIdeal.Read.val_main_v59 (F := Ideal) x0 x1 x2 x3 x4 := by
  simp only [layerK_eq_layerR]
  rw [unpack_poolK_pack, ref_pool_layers]
  rfl

end Cert.Bridge

end
-- ==== Proof.lean ====
/-
  The certificate's five claims for a three-layer graph propagation with a normalised mean pooling.

  Both programs build the node table from the two embedding tables, propagate it three times along the edge list
  (each step: gather the source rows, scale by the edge values, add by destination row) and pool the table with the
  three layers, each layer's rows divided by their floored Euclidean norms, the four arrays averaged. They differ in
  three spellings: the kernel program takes the edges in eight consecutive runs and adds the eight partial arrays; it
  pools in a fused region over rows that hold two nodes each, multiplying by a reciprocal norm where the reference
  divides; and it multiplies by one quarter where the reference divides by four. Over the extended reals each pair of
  spellings is one function for all values (Proof/Equal.lean), so the precondition is not used by the value claim.

  The frames of the two kernel programs are the generated frame certificates; the reference's frame is its generated run
  with the results dropped; the ideal pass rewrote nothing, so the preservation claim is trivial.
-/
import proofs.«153858_j60035052863927_2_alg».proof.Defs
import proofs.«153858_j60035052863927_2_alg».proof.Proof.Gen.Kernel
import proofs.«153858_j60035052863927_2_alg».proof.Proof.Gen.Kernel.Skeleton
import proofs.«153858_j60035052863927_2_alg».proof.Proof.Gen.Kernel.Launch
import proofs.«153858_j60035052863927_2_alg».proof.Proof.Gen.Kernel.Points
import proofs.«153858_j60035052863927_2_alg».proof.Proof.Gen.Kernel.Frame
import proofs.«153858_j60035052863927_2_alg».proof.Proof.Gen.KernelIdeal
import proofs.«153858_j60035052863927_2_alg».proof.Proof.Gen.KernelIdeal.Skeleton
import proofs.«153858_j60035052863927_2_alg».proof.Proof.Gen.KernelIdeal.Launch
import proofs.«153858_j60035052863927_2_alg».proof.Proof.Gen.KernelIdeal.Points
import proofs.«153858_j60035052863927_2_alg».proof.Proof.Gen.KernelIdeal.Frame
import proofs.«153858_j60035052863927_2_alg».proof.Proof.Gen.ReferenceIdeal
import proofs.«153858_j60035052863927_2_alg».proof.Proof.Gen.Pre_finite_inputs
import proofs.«153858_j60035052863927_2_alg».proof.Proof.Gen.ReferenceIdeal.Run
import proofs.«153858_j60035052863927_2_alg».proof.Proof.Gen.ReferenceIdeal.Read
import proofs.«153858_j60035052863927_2_alg».proof.Proof.KernelValue
import proofs.«153858_j60035052863927_2_alg».proof.Proof.Equal
import Idealize.ShloMosaic.Adequacy
import Idealize.ShloMosaic.Init

set_option maxRecDepth 16384

noncomputable section

namespace Cert.Proof

open Idealize.ShloMosaic Idealize.ShloMosaic.TcCoe Idealize.SL.Sem

/-! ## The kernel program's results are the reference's functions of the launched memory -/

section Values

open Cert.KernelIdeal Cert.KernelIdeal.Gen Cert.Bridge

variable (m : (ℓ : Loc nD τ sig) → Buf (Elt Ideal) ℓ)

/-- The kernel program's pooled array of the launched memory is the reference's pooled array of the same arguments. -/
theorem pooled_ref (c : Dev nD) :
    pooledOf m c = Cert.ReferenceIdeal.Read.val_main_v59 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) :=
  pooled_eq_ref _ _ _ _ _

/-- Its first result is the reference's first result. -/
theorem users_ref (c : Dev nD) :
    Pipeline.afterTail₀ cfgs (dats m) 0 (V0 m) [hostOps1] c main_v418
      = Cert.ReferenceIdeal.Read.val_main_v60 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) :=
  (kernel_users m c).trans (congrArg usersK (pooled_ref m c))

/-- Its second result is the reference's second result. -/
theorem items_ref (c : Dev nD) :
    Pipeline.afterTail₀ cfgs (dats m) 0 (V0 m) [hostOps1] c main_v419
      = Cert.ReferenceIdeal.Read.val_main_v61 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) :=
  (kernel_items m c).trans (congrArg itemsK (pooled_ref m c))

end Values

/-! ## The claims -/

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs, from memories that agree on the arguments, end with the reference's two result functions of
    those arguments. -/
theorem algebraic : Cert.algebraic_KernelIdeal_ReferenceIdeal := by
  intro m ρ m' ρ' _ hagree
  refine ⟨fun c => Cert.ReferenceIdeal.Read.val_main_v60 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      fun c => Cert.ReferenceIdeal.Read.val_main_v61 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)), ?_, ?_⟩
  · exact (θ_run Cert.KernelIdeal.defs _ _).mono (fun r h c =>
      ⟨((h c).2 Cert.KernelIdeal.main_v418 (Pipeline.mem_restRefs_of Cert.KernelIdeal.main_v418 (by decide) (by decide))).trans (users_ref m c),
       ((h c).2 Cert.KernelIdeal.main_v419 (Pipeline.mem_restRefs_of Cert.KernelIdeal.main_v419 (by decide) (by decide))).trans (items_ref m c),
       ((h c).2 Cert.KernelIdeal.main_arg0 (Pipeline.mem_restRefs_of Cert.KernelIdeal.main_arg0 (by decide) (by decide))).trans (Cert.KernelIdeal.Gen.W_main_arg0 m (Cert.KernelIdeal.Gen.dats m) c),
       ((h c).2 Cert.KernelIdeal.main_arg1 (Pipeline.mem_restRefs_of Cert.KernelIdeal.main_arg1 (by decide) (by decide))).trans (Cert.KernelIdeal.Gen.W_main_arg1 m (Cert.KernelIdeal.Gen.dats m) c),
       ((h c).2 Cert.KernelIdeal.main_arg2 (Pipeline.mem_restRefs_of Cert.KernelIdeal.main_arg2 (by decide) (by decide))).trans (Cert.KernelIdeal.Gen.W_main_arg2 m (Cert.KernelIdeal.Gen.dats m) c),
       ((h c).2 Cert.KernelIdeal.main_arg3 (Pipeline.mem_restRefs_of Cert.KernelIdeal.main_arg3 (by decide) (by decide))).trans (Cert.KernelIdeal.Gen.W_main_arg3 m (Cert.KernelIdeal.Gen.dats m) c),
       ((h c).2 Cert.KernelIdeal.main_arg4 (Pipeline.mem_restRefs_of Cert.KernelIdeal.main_arg4 (by decide) (by decide))).trans (Cert.KernelIdeal.Gen.W_main_arg4 m (Cert.KernelIdeal.Gen.dats m) c)⟩)
      (Cert.KernelIdeal.Gen.run_main m ρ)
  · exact (θ_run Cert.ReferenceIdeal.defs _ _).mono (fun r h c =>
      ⟨by rw [(h c).1, Cert.ReferenceIdeal.Read.val_main_v60_eq, (hagree c).1, (hagree c).2.1, (hagree c).2.2.1, (hagree c).2.2.2.1, (hagree c).2.2.2.2],
       by rw [(h c).2.1, Cert.ReferenceIdeal.Read.val_main_v61_eq, (hagree c).1, (hagree c).2.1, (hagree c).2.2.1, (hagree c).2.2.2.1, (hagree c).2.2.2.2],
       (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
